-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S32x4096 : S_.BroadcastsInDim S32x4096 (![] : Fin 0 → Fin S32x4096.rank)
  reducesTo_S32x4096_S_d0_1 : S32x4096.ReducesTo [0, 1] S_

variable [Facts]

def fn_part1 {F : FTy → Type} [FloatOps F] (main_arg4 : FVec F S4x2048x4096 .f32) (main_v13 : IVec S_ 1) (main_v16 : IVec S32x4096 1) : IVec S_ 1 :=
  let main_c_5 : IVec S_ 1 := constantI S_ 1 1#1
  let main_v17 : IVec S_ 1 := (fun x v => Host.reduce IntOp.andi x v reducesTo_S32x4096_S_d0_1 h_S_) main_v16 main_c_5
  let main_v18 : IVec S_ 1 := andi main_v13 main_v17
  let main_v19 : FVec F S4x2048x4096 .f32 := Host.absf main_arg4
  let main_cst_6 : FVec F S_ .f32 := constant S_ .f32 0x7F800000#32
  let main_v20 : FVec F S4x2048x4096 .f32 := broadcastInDim S4x2048x4096 ![] bcast_S_S4x2048x4096 main_cst_6
  let main_v21 : IVec S4x2048x4096 1 := cmpf .olt main_v19 main_v20
  let main_c_7 : IVec S_ 1 := constantI S_ 1 1#1
  let main_v22 : IVec S_ 1 := (fun x v => Host.reduce IntOp.andi x v reducesTo_S4x2048x4096_S_d0_1_2 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x32 .f32) (main_arg3 : FVec F S32x4096 .f32) (main_arg4 : FVec F S4x2048x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S32x4096 .f32 := Host.absf main_arg3
  let main_cst_4 : FVec F S_ .f32 := constant S_ .f32 0x7F800000#32
  let main_v15 : FVec F S32x4096 .f32 := broadcastInDim S32x4096 ![] bcast_S_S32x4096 main_cst_4
  let main_v16 : IVec S32x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S8192x4096 : Shape := ⟨2, ![8192, 4096]⟩
abbrev S1024x128 : Shape := ⟨2, ![1024, 128]⟩
abbrev S4096x128 : Shape := ⟨2, ![4096, 128]⟩
abbrev S128x32 : Shape := ⟨2, ![128, 32]⟩
abbrev S1024x4096 : Shape := ⟨2, ![1024, 4096]⟩
abbrev S1024x32 : Shape := ⟨2, ![1024, 32]⟩
abbrev S512x128 : Shape := ⟨2, ![512, 128]⟩
abbrev S1024x512 : Shape := ⟨2, ![1024, 512]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x32, .f32⟩
  | .hbm, ⟨3, _⟩ => ⟨S32x4096, .f32⟩
  | .hbm, ⟨4, _⟩ => ⟨S4x2048x4096, .f32⟩
  | .hbm, ⟨5, _⟩ => ⟨S8192x4096, .f32⟩
  | .hbm, ⟨6, _⟩ => ⟨S8192x4096, .f32⟩
  | .hbm, ⟨7, _⟩ => ⟨S4096x4096, .bf16⟩
  | .hbm, ⟨8, _⟩ => ⟨S4096x32, .bf16⟩
  | .hbm, ⟨9, _⟩ => ⟨S32x4096, .bf16⟩
  | .hbm, ⟨10, _⟩ => ⟨S8192x4096, .f32⟩
  | .hbm, ⟨11, _⟩ => ⟨S4x2048x4096, .f32⟩
  | .local _ .vmem, ⟨0, _⟩ => ⟨S1024x128, .f32⟩
  | .local _ .vmem, ⟨1, _⟩ => ⟨S1024x128, .f32⟩
  | .local _ .vmem, ⟨2, _⟩ => ⟨S4096x128, .bf16⟩
  | .local _ .vmem, ⟨3, _⟩ => ⟨S4096x128, .bf16⟩
  | .local _ .vmem, ⟨4, _⟩ => ⟨S128x32, .bf16⟩
  | .local _ .vmem, ⟨5, _⟩ => ⟨S128x32, .bf16⟩
  | .local _ .vmem, ⟨6, _⟩ => ⟨S32x4096, .bf16⟩
  | .local _ .vmem, ⟨7, _⟩ => ⟨S1024x128, .f32⟩
  | .local _ .vmem, ⟨8, _⟩ => ⟨S1024x128, .f32⟩
  | .local _ .vmem, ⟨9, _⟩ => ⟨S1024x4096, .f32⟩
  | .local _ .vmem, ⟨10, _⟩ => ⟨S1024x4096, .f32⟩
  | .local _ .vmem, ⟨11, _⟩ => ⟨S1024x32, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  inb_S1024x4096_S1024x512_0_0 : ∀ a, (![0, 0] : Fin 2 → Nat) a + S1024x512.size a ≤ S1024x4096.size a
  h_S1024x512 : 0 < S1024x512.numel
  shapeCasts_S1024x512_S1024x512 : S1024x512.ShapeCasts S1024x512
  inb_S4096x128_S512x128_512_0 : ∀ a, (![512, 0] : Fin 2 → Nat) a + S512x128.size a ≤ S4096x128.size a
  inb_S1024x4096_S1024x512_0_512 : ∀ a, (![0, 512] : Fin 2 → Nat) a + S1024x512.size a ≤ S1024x4096.size a
  inb_S4096x128_S512x128_1024_0 : ∀ a, (![1024, 0] : Fin 2 → Nat) a + S512x128.size a ≤ S4096x128.size a
  inb_S1024x4096_S1024x512_0_1024 : ∀ a, (![0, 1024] : Fin 2 → Nat) a + S1024x512.size a ≤ S1024x4096.size a
  inb_S4096x128_S512x128_1536_0 : ∀ a, (![1536, 0] : Fin 2 → Nat) a + S512x128.size a ≤ S4096x128.size a
  inb_S1024x4096_S1024x512_0_1536 : ∀ a, (![0, 1536] : Fin 2 → Nat) a + S1024x512.size a ≤ S1024x4096.size a
  inb_S4096x128_S512x128_2048_0 : ∀ a, (![2048, 0] : Fin 2 → Nat) a + S512x128.size a ≤ S4096x128.size a
  inb_S1024x4096_S1024x512_0_2048 : ∀ a, (![0, 2048] : Fin 2 → Nat) a + S1024x512.size a ≤ S1024x4096.size a
  inb_S4096x128_S512x128_2560_0 : ∀ a, (![2560, 0] : Fin 2 → Nat) a + S512x128.size a ≤ S4096x128.size a
  inb_S1024x4096_S1024x512_0_2560 : ∀ a, (![0, 2560] : Fin 2 → Nat) a + S1024x512.size a ≤ S1024x4096.size a
  inb_S4096x128_S512x128_3072_0 : ∀ a, (![3072, 0] : Fin 2 → Nat) a + S512x128.size a ≤ S4096x128.size a
  inb_S1024x4096_S1024x512_0_3072 : ∀ a, (![0, 3072] : Fin 2 → Nat) a + S1024x512.size a ≤ S1024x4096.size a
  inb_S4096x128_S512x128_3584_0 : ∀ a, (![3584, 0] : Fin 2 → Nat) a + S512x128.size a ≤ S4096x128.size a
  inb_S1024x4096_S1024x512_0_3584 : ∀ a, (![0, 3584] : Fin 2 → Nat) a + S1024x512.size a ≤ S1024x4096.size a
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  shapeCasts_S1024x4096_S1024x4096 : S1024x4096.ShapeCasts S1024x4096
  shapeCasts_S8192x4096_S4x2048x4096 : S8192x4096.ShapeCasts S4x2048x4096
  dot_S1024x128_S512x128_S1024x512_1_1_0_0_n_n_wf : DotDims.WF S1024x128 S512x128 S1024x512 [1] [1] [0] [0] [] []
  dot_S1024x128_S128x32_S1024x32_1_0_0_1_n_n_wf : DotDims.WF S1024x128 S128x32 S1024x32 [1] [0] [0] [1] [] []
  dot_S1024x32_S32x4096_S1024x4096_1_0_0_1_n_n_wf : DotDims.WF S1024x32 S32x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x4096.size a
  hwx0_0 : ∀ i : grid0.Coords, EltTy.bits .f32 = 32 ∨ (Rect.block (s := S8192x4096) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .bf16 = 32 ∨ (Rect.block (s := S4096x4096) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S4096x32.size a
  hwx0_2 : ∀ i : grid0.Coords, EltTy.bits .bf16 = 32 ∨ (Rect.block (s := S4096x32) S128x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x4096.size a
  hwx0_3 : ∀ i : grid0.Coords, EltTy.bits .bf16 = 32 ∨ (Rect.block (s := S32x4096) S32x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x4096.size a
  hwx0_4 : ∀ i : grid0.Coords, EltTy.bits .f32 = 32 ∨ (Rect.block (s := S8192x4096) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S8192x4096.size a
  hwx0_5 : ∀ i : grid0.Coords, EltTy.bits .f32 = 32 ∨ (Rect.block (s := S8192x4096) S1024x4096.size (cc0_transform_5 i) (hinb0_5 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S32x4096 : Shape := ⟨2, ![32, 4096]⟩
abbrev S4x2048x32 : Shape := ⟨3, ![4, 2048, 32]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x32, .f32⟩
  | .hbm, ⟨3, _⟩ => ⟨S32x4096, .f32⟩
  | .hbm, ⟨4, _⟩ => ⟨S4x2048x4096, .f32⟩
  | .hbm, ⟨5, _⟩ => ⟨S4x2048x4096, .f32⟩
  | .hbm, ⟨6, _⟩ => ⟨S4x2048x4096, .f32⟩
  | .hbm, ⟨7, _⟩ => ⟨S4x2048x32, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S4096x32_S4x2048x32_2_0_01_1_n_n_wf : DotDims.WF S4x2048x4096 S4096x32 S4x2048x32 [2] [0] [0, 1] [1] [] []
  dot_S4x2048x32_S32x4096_S4x2048x4096_2_0_01_1_n_n_wf : DotDims.WF S4x2048x32 S32x4096 S4x2048x4096 [2] [0] [0, 1] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S4096x32_S4x2048x32_2_0_01_1_n_n : DotDims S4x2048x4096 S4096x32 S4x2048x32 where
  lhsContracting := [2]
  rhsContracting := [0]
  lhsNonContracting := [0, 1]
  rhsNonContracting := [1]
  lhsBatch := []
  rhsBatch := []
  wf := dot_S4x2048x4096_S4096x32_S4x2048x32_2_0_01_1_n_n_wf
def dot_S4x2048x32_S32x4096_S4x2048x4096_2_0_01_1_n_n : DotDims S4x2048x32 S32x4096 S4x2048x4096 where
  lhsContracting := [2]
  rhsContracting := [0]
  lhsNonContracting := [0, 1]
  rhsNonContracting := [1]
  lhsBatch := []
  rhsBatch := []
  wf := dot_S4x2048x32_S32x4096_S4x2048x4096_2_0_01_1_n_n_wf

class Facts : Prop extends Facts₀ where

variable [Facts]
-- ==== Proof.LoraMatmul.lean ====
/-
  The three matrix products of the tile body, read entry by entry over the extended reals.

  Into a zero accumulator a product is the plain sum, over the one contracted axis, of the operands' products:
    * activations (rows × 128) against a block of weight ROWS (512 × 128), both contracted on their second axis:
        entry (r, q) = ∑ j, xb r j * w q j ;
    * masked activations (rows × 128) against a block of `A` (128 × 32):   entry (r, ρ) = ∑ j, xm r j * a j ρ ;
    * the finished low-rank sums (rows × 32) against `B` (32 × 4096):       entry (r, o) = ∑ ρ, s r ρ * b ρ o .
  Each is the library's reading of a product at an index, re-indexed from the contraction shape's one axis to `Fin n`.
-/
import proofs.«167855_j1992864825716_2_alg».proof.Proof.Gen.KernelIdeal
import Idealize.ShloMosaic.Lib.ValueIdx
import Idealize.ShloMosaic.PureOps.Ideal.Laws

noncomputable section

namespace Cert.KernelIdeal.LoraBody

open Cert.KernelIdeal Cert.KernelIdeal.Gen Idealize.ShloMosaic Idealize.ShloMosaic.ValueIdx

/-! ## Activations against weight rows -/

theorem xw_lhs_0 (i : S1024x512.Idx) (q : dot_S1024x128_S512x128_S1024x512_1_1_0_0_n_n.contr.Idx) :
    (dot_S1024x128_S512x128_S1024x512_1_1_0_0_n_n.lhsIdx i q 0).val = (i 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem xw_rhs_0 (i : S1024x512.Idx) (q : dot_S1024x128_S512x128_S1024x512_1_1_0_0_n_n.contr.Idx) :
    (dot_S1024x128_S512x128_S1024x512_1_1_0_0_n_n.rhsIdx i q 0).val = (i 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl

theorem matmul_xw {φ₁ φ₂ : FTy} (xb : FVec Ideal S1024x128 φ₁) (w : FVec Ideal S512x128 φ₂) (r : Fin 1024) (q : Fin 512) :
    matmul dot_S1024x128_S512x128_S1024x512_1_1_0_0_n_n none xb w (constant S1024x512 .f32 0x00000000#32) (ix2 r q)
      = ∑ j : Fin 128, xb (ix2 r j) * w (ix2 q j) := by
  simp only [matmul]
  rw [Ideal.matmul_constant_zero_apply, ← Equiv.sum_comp (contrEquiv1 dot_S1024x128_S512x128_S1024x512_1_1_0_0_n_n 128 rfl rfl).symm]
  refine Finset.sum_congr rfl fun k _ => ?_
  have hk := contrEquiv1_symm_val dot_S1024x128_S512x128_S1024x512_1_1_0_0_n_n 128 rfl rfl k
  have el : dot_S1024x128_S512x128_S1024x512_1_1_0_0_n_n.lhsIdx (ix2 r q) ((contrEquiv1 dot_S1024x128_S512x128_S1024x512_1_1_0_0_n_n 128 rfl rfl).symm k) = ix2 r k := funext fun a => Fin.ext (by
    match a with
    | ⟨0, _⟩ => exact xw_lhs_0 _ _
    | ⟨1, _⟩ => exact (dot_S1024x128_S512x128_S1024x512_1_1_0_0_n_n.lhsIdx_val_of_single rfl _ _).trans hk)
  have er : dot_S1024x128_S512x128_S1024x512_1_1_0_0_n_n.rhsIdx (ix2 r q) ((contrEquiv1 dot_S1024x128_S512x128_S1024x512_1_1_0_0_n_n 128 rfl rfl).symm k) = ix2 q k := funext fun a => Fin.ext (by
    match a with
    | ⟨0, _⟩ => exact xw_rhs_0 _ _
    | ⟨1, _⟩ => exact (dot_S1024x128_S512x128_S1024x512_1_1_0_0_n_n.rhsIdx_val_of_single rfl _ _).trans hk)
  rw [el, er]

/-! ## Masked activations against a block of `A` -/

theorem xa_lhs_0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
theorem xa_rhs_1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

theorem matmul_xa {φ₁ φ₂ : FTy} (xm : FVec Ideal S1024x128 φ₁) (a : FVec Ideal S128x32 φ₂) (r : Fin 1024) (ρ : Fin 32) :
    matmul dot_S1024x128_S128x32_S1024x32_1_0_0_1_n_n none xm a (constant S1024x32 .f32 0x00000000#32) (ix2 r ρ)
      = ∑ j : Fin 128, xm (ix2 r j) * a (ix2 j ρ) := by
  simp only [matmul]
  rw [Ideal.matmul_constant_zero_apply, ← Equiv.sum_comp (contrEquiv1 dot_S1024x128_S128x32_S1024x32_1_0_0_1_n_n 128 rfl rfl).symm]
  refine Finset.sum_congr rfl fun k _ => ?_
  have hk := contrEquiv1_symm_val dot_S1024x128_S128x32_S1024x32_1_0_0_1_n_n 128 rfl rfl k
  have el : dot_S1024x128_S128x32_S1024x32_1_0_0_1_n_n.lhsIdx (ix2 r ρ) ((contrEquiv1 dot_S1024x128_S128x32_S1024x32_1_0_0_1_n_n 128 rfl rfl).symm k) = ix2 r k := funext fun a => Fin.ext (by
    match a with
    | ⟨0, _⟩ => exact xa_lhs_0 _ _
    | ⟨1, _⟩ => exact (dot_S1024x128_S128x32_S1024x32_1_0_0_1_n_n.lhsIdx_val_of_single rfl _ _).trans hk)
  have er : dot_S1024x128_S128x32_S1024x32_1_0_0_1_n_n.rhsIdx (ix2 r ρ) ((contrEquiv1 dot_S1024x128_S128x32_S1024x32_1_0_0_1_n_n 128 rfl rfl).symm k) = ix2 k ρ := funext fun a => Fin.ext (by
    match a with
    | ⟨0, _⟩ => exact (dot_S1024x128_S128x32_S1024x32_1_0_0_1_n_n.rhsIdx_val_of_single rfl _ _).trans hk
    | ⟨1, _⟩ => exact xa_rhs_1 _ _)
  rw [el, er]

/-! ## The finished low-rank sums against `B` -/

theorem sb_lhs_0 (i : S1024x4096.Idx) (q : dot_S1024x32_S32x4096_S1024x4096_1_0_0_1_n_n.contr.Idx) :
    (dot_S1024x32_S32x4096_S1024x4096_1_0_0_1_n_n.lhsIdx i q 0).val = (i 0).val := by
  unfold DotDims.lhsIdx
  rw [dif_neg (show ¬(0 : Fin S1024x32.rank) ∈ dot_S1024x32_S32x4096_S1024x4096_1_0_0_1_n_n.lhsBatch by decide), dif_pos (show (0 : Fin S1024x32.rank) ∈ dot_S1024x32_S32x4096_S1024x4096_1_0_0_1_n_n.lhsNonContracting by decide)]
  rfl
theorem sb_rhs_1 (i : S1024x4096.Idx) (q : dot_S1024x32_S32x4096_S1024x4096_1_0_0_1_n_n.contr.Idx) :
    (dot_S1024x32_S32x4096_S1024x4096_1_0_0_1_n_n.rhsIdx i q 1).val = (i 1).val := by
  unfold DotDims.rhsIdx
  rw [dif_neg (show ¬(1 : Fin S32x4096.rank) ∈ dot_S1024x32_S32x4096_S1024x4096_1_0_0_1_n_n.rhsBatch by decide), dif_pos (show (1 : Fin S32x4096.rank) ∈ dot_S1024x32_S32x4096_S1024x4096_1_0_0_1_n_n.rhsNonContracting by decide)]
  rfl

theorem matmul_sb {φ₁ φ₂ : FTy} (s : FVec Ideal S1024x32 φ₁) (b : FVec Ideal S32x4096 φ₂) (r : Fin 1024) (o : Fin 4096) :
    matmul dot_S1024x32_S32x4096_S1024x4096_1_0_0_1_n_n none s b (constant S1024x4096 .f32 0x00000000#32) (ix2 r o)
      = ∑ ρ : Fin 32, s (ix2 r ρ) * b (ix2 ρ o) := by
  simp only [matmul]
  rw [Ideal.matmul_constant_zero_apply, ← Equiv.sum_comp (contrEquiv1 dot_S1024x32_S32x4096_S1024x4096_1_0_0_1_n_n 32 rfl rfl).symm]
  refine Finset.sum_congr rfl fun k _ => ?_
  have hk := contrEquiv1_symm_val dot_S1024x32_S32x4096_S1024x4096_1_0_0_1_n_n 32 rfl rfl k
  have el : dot_S1024x32_S32x4096_S1024x4096_1_0_0_1_n_n.lhsIdx (ix2 r o) ((contrEquiv1 dot_S1024x32_S32x4096_S1024x4096_1_0_0_1_n_n 32 rfl rfl).symm k) = ix2 r k := funext fun a => Fin.ext (by
    match a with
    | ⟨0, _⟩ => exact sb_lhs_0 _ _
    | ⟨1, _⟩ => exact (dot_S1024x32_S32x4096_S1024x4096_1_0_0_1_n_n.lhsIdx_val_of_single rfl _ _).trans hk)
  have er : dot_S1024x32_S32x4096_S1024x4096_1_0_0_1_n_n.rhsIdx (ix2 r o) ((contrEquiv1 dot_S1024x32_S32x4096_S1024x4096_1_0_0_1_n_n 32 rfl rfl).symm k) = ix2 k o := funext fun a => Fin.ext (by
    match a with
    | ⟨0, _⟩ => exact (dot_S1024x32_S32x4096_S1024x4096_1_0_0_1_n_n.rhsIdx_val_of_single rfl _ _).trans hk
    | ⟨1, _⟩ => exact sb_rhs_1 _ _)
  rw [el, er]

end Cert.KernelIdeal.LoraBody

end
-- ==== Proof.LoraTiles.lean ====
/-
  A linear layer with a low-rank correction, computed tile by tile: the mathematics, with no program in sight.

  For a row `r` of activations `x`, a dropout mask `d`, a weight matrix `W` (one row per output feature), and
  low-rank factors `A`, `B`, the layer's output feature `o` is

      out r o = ∑ q, x r q * W o q  +  ∑ ρ, (∑ q, (x r q * d r q) * A q ρ) * B ρ o .

  A tiled evaluation walks the contraction index `q` in consecutive blocks of 128. It keeps two running sums per
  row tile: `accO`, the first sum restricted to the columns `q < n` seen so far, and `accS`, the inner sum of the
  second term over the same columns. One step adds a block's 128 products to each (`stepO`, `stepS`); after the last
  block the low-rank sum over `ρ` is added once (`closeO`). Everything is over the extended reals, where addition is
  commutative and associative at the infinities too, so consecutive blocks of a sum may be taken one at a time
  (`Finset.sum_range_add`) with no finiteness assumption.

  The operands are given as functions of natural-number coordinates (`fx r q`, `fw o q`, …), so that "the block at
  columns 128 k … 128 k + 127" is plain arithmetic.
-/
import Idealize.ShloMosaic.PureOps.Ideal
import Idealize.ShloMosaic.Lib.ValueIdx

noncomputable section

namespace Cert.LoraTiles

open Idealize.ShloMosaic Idealize.ShloMosaic.ValueIdx

/-- The shapes of one step's blocks and of the two running sums. -/
abbrev RowsByK : Shape := ⟨2, ![1024, 128]⟩
abbrev OutByK : Shape := ⟨2, ![4096, 128]⟩
abbrev KByRank : Shape := ⟨2, ![128, 32]⟩
abbrev RankByOut : Shape := ⟨2, ![32, 4096]⟩
abbrev RowsByOut : Shape := ⟨2, ![1024, 4096]⟩
abbrev RowsByRank : Shape := ⟨2, ![1024, 32]⟩

/-! ## One step on blocks -/

/-- Add to each entry `(r, o)` of the running output the 128 products of row `r` of the activation block with row `o`
    of the weight block. -/
def stepO (x0 : RowsByK.Idx → EReal) (x1 : OutByK.Idx → EReal) (xo : RowsByOut.Idx → EReal) : RowsByOut.Idx → EReal :=
  fun y => xo y + ∑ j : Fin 128, x0 (ix2 (y 0) j) * x1 (ix2 (y 1) j)

/-- Add to each entry `(r, ρ)` of the running low-rank sum the 128 products of row `r` of the masked activation block
    with column `ρ` of the block of `A`. -/
def stepS (x0 x4 : RowsByK.Idx → EReal) (x2 : KByRank.Idx → EReal) (xs : RowsByRank.Idx → EReal) : RowsByRank.Idx → EReal :=
  fun y => xs y + ∑ j : Fin 128, (x0 (ix2 (y 0) j) * x4 (ix2 (y 0) j)) * x2 (ix2 j (y 1))

/-- After the last block: add the low-rank term, row `r` of the finished inner sums against column `o` of `B`. -/
def closeO (x3 : RankByOut.Idx → EReal) (s : RowsByRank.Idx → EReal) (o : RowsByOut.Idx → EReal) : RowsByOut.Idx → EReal :=
  fun y => o y + ∑ ρ : Fin 32, s (ix2 (y 0) ρ) * x3 (ix2 ρ (y 1))

/-! ## The running sums over the first `n` columns -/

variable (fx fm fw fa fb : ℕ → ℕ → EReal)

/-- `∑ q < n, x r q * W o q` at entry `(r, o)`. -/
def accO (n : ℕ) : RowsByOut.Idx → EReal :=
  fun y => ∑ q ∈ Finset.range n, fx (y 0).val q * fw (y 1).val q

/-- `∑ q < n, (x r q * d r q) * A q ρ` at entry `(r, ρ)`. -/
def accS (n : ℕ) : RowsByRank.Idx → EReal :=
  fun y => ∑ q ∈ Finset.range n, (fx (y 0).val q * fm (y 0).val q) * fa q (y 1).val

/-- The whole layer on a row tile: both sums over all 4096 columns, the second closed over the 32 ranks. -/
def tileOut : RowsByOut.Idx → EReal :=
  fun y => (∑ q ∈ Finset.range 4096, fx (y 0).val q * fw (y 1).val q)
    + ∑ ρ : Fin 32, (∑ q ∈ Finset.range 4096, (fx (y 0).val q * fm (y 0).val q) * fa q ρ.val) * fb ρ.val (y 1).val

theorem accO_zero : accO fx fw 0 = fun _ => 0 := funext fun _ => Finset.sum_range_zero _
theorem accS_zero : accS fx fm fa 0 = fun _ => 0 := funext fun _ => Finset.sum_range_zero _

/-- A step whose blocks are the columns `128 k … 128 k + 127` moves the running output from `128 k` columns to
    `128 (k + 1)`: the sum over the first `128 k + 128` columns is the sum over the first `128 k` plus the block's. -/
theorem stepO_acc (k : ℕ) (x0 : RowsByK.Idx → EReal) (x1 : OutByK.Idx → EReal)
    (h0 : ∀ (r : Fin 1024) (j : Fin 128), x0 (ix2 r j) = fx r.val (128 * k + j.val))
    (h1 : ∀ (o : Fin 4096) (j : Fin 128), x1 (ix2 o j) = fw o.val (128 * k + j.val)) :
    stepO x0 x1 (accO fx fw (128 * k)) = accO fx fw (128 * (k + 1)) := by
  funext y
  show (∑ q ∈ Finset.range (128 * k), fx (y 0).val q * fw (y 1).val q) + ∑ j : Fin 128, x0 (ix2 (y 0) j) * x1 (ix2 (y 1) j)
    = ∑ q ∈ Finset.range (128 * (k + 1)), fx (y 0).val q * fw (y 1).val q
  rw [show 128 * (k + 1) = 128 * k + 128 from by ring, Finset.sum_range_add,
    Finset.sum_range (fun j => fx (y 0).val (128 * k + j) * fw (y 1).val (128 * k + j))]
  exact congrArg (_ + ·) (Finset.sum_congr rfl fun j _ => congrArg₂ (· * ·) (h0 (y 0) j) (h1 (y 1) j))

/-- The same for the running low-rank sum. -/
theorem stepS_acc (k : ℕ) (x0 x4 : RowsByK.Idx → EReal) (x2 : KByRank.Idx → EReal)
    (h0 : ∀ (r : Fin 1024) (j : Fin 128), x0 (ix2 r j) = fx r.val (128 * k + j.val))
    (h4 : ∀ (r : Fin 1024) (j : Fin 128), x4 (ix2 r j) = fm r.val (128 * k + j.val))
    (h2 : ∀ (j : Fin 128) (ρ : Fin 32), x2 (ix2 j ρ) = fa (128 * k + j.val) ρ.val) :
    stepS x0 x4 x2 (accS fx fm fa (128 * k)) = accS fx fm fa (128 * (k + 1)) := by
  funext y
  show (∑ q ∈ Finset.range (128 * k), (fx (y 0).val q * fm (y 0).val q) * fa q (y 1).val)
      + ∑ j : Fin 128, (x0 (ix2 (y 0) j) * x4 (ix2 (y 0) j)) * x2 (ix2 j (y 1))
    = ∑ q ∈ Finset.range (128 * (k + 1)), (fx (y 0).val q * fm (y 0).val q) * fa q (y 1).val
  rw [show 128 * (k + 1) = 128 * k + 128 from by ring, Finset.sum_range_add,
    Finset.sum_range (fun j => (fx (y 0).val (128 * k + j) * fm (y 0).val (128 * k + j)) * fa (128 * k + j) (y 1).val)]
  exact congrArg (_ + ·) (Finset.sum_congr rfl fun j _ =>
    congrArg₂ (· * ·) (congrArg₂ (· * ·) (h0 (y 0) j) (h4 (y 0) j)) (h2 j (y 1)))

/-- Closing the finished sums (all `128 · 32 = 4096` columns) against `B` gives the layer on the tile. -/
theorem closeO_acc (x3 : RankByOut.Idx → EReal)
    (h3 : ∀ (ρ : Fin 32) (o : Fin 4096), x3 (ix2 ρ o) = fb ρ.val o.val) :
    closeO x3 (accS fx fm fa 4096) (accO fx fw 4096) = tileOut fx fm fw fa fb := by
  funext y
  show (∑ q ∈ Finset.range 4096, fx (y 0).val q * fw (y 1).val q)
      + ∑ ρ : Fin 32, (∑ q ∈ Finset.range 4096, (fx (y 0).val q * fm (y 0).val q) * fa q ρ.val) * x3 (ix2 ρ (y 1)) = _
  exact congrArg (_ + ·) (Finset.sum_congr rfl fun ρ _ => congrArg (_ * ·) (h3 ρ (y 1)))

end Cert.LoraTiles

end
-- ==== Proof.LoraChunks.lean ====
/-
  The running output is kept in one (rows × 4096) buffer but updated in eight column chunks of width 512.

  Three facts about that layout, none of which looks inside a chunk's contents:
    * `canon_chunks`: if each of the eight chunk stores holds, entry by entry, the restriction of ONE function `G` of the
      buffer's index to its columns, then after the eight stores (whatever was stored before them) the buffer reads `G`:
      the chunks' column ranges [512 c, 512 c + 512) partition [0, 4096).
    * `readCov_fresh_c`: after the whole buffer was filled with `z` and chunks 0 … c − 1 were stored, a load of chunk `c`
      still reads `z` there: the earlier chunks lie strictly to its left.
    * `chunk_at`: one chunk update — the old chunk plus the product of the activation block with 512 rows of the weight
      block — is, at each entry, the step `LoraTiles.stepO` of the whole buffer read at that entry's place.
-/
import proofs.«167855_j1992864825716_2_alg».proof.Proof.LoraMatmul
import proofs.«167855_j1992864825716_2_alg».proof.Proof.LoraTiles
import Idealize.ShloMosaic.Lib.Pipeline.Value
import Idealize.ShloMosaic.Lib.Pipeline.CanonAppend

set_option maxRecDepth 16384

noncomputable section

namespace Cert.KernelIdeal.LoraBody

open Cert.KernelIdeal Cert.KernelIdeal.Gen Idealize.ShloMosaic Idealize.ShloMosaic.ValueIdx

theorem hz : (![0, 0] : Fin 2 → Nat) = fun _ => 0 := funext fun a => by fin_cases a <;> rfl

section Layout
variable {Val : EltTy → Type} [∀ e, Nonempty (Val e)]

/-- Eight chunk stores, each the restriction of `G` to its columns, leave `G` — over any earlier stores `L'`. -/
theorem canon_chunks (G : S1024x4096.Idx → Val .f32) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (i4 : ∀ a, (![0, 2048] : Fin 2 → ℕ) a + (![1024, 512] : Fin 2 → ℕ) a ≤ S1024x4096.size a) (i5 : ∀ a, (![0, 2560] : Fin 2 → ℕ) a + (![1024, 512] : Fin 2 → ℕ) a ≤ S1024x4096.size a) (i6 : ∀ a, (![0, 3072] : Fin 2 → ℕ) a + (![1024, 512] : Fin 2 → ℕ) a ≤ S1024x4096.size a) (i7 : ∀ a, (![0, 3584] : Fin 2 → ℕ) a + (![1024, 512] : Fin 2 → ℕ) a ≤ S1024x4096.size a)
    (w0 w1 w2 w3 w4 w5 w6 w7 : S1024x512.Idx → Val .f32)
    (h0 : ∀ x, w0 x = G ((Rect.unit (s := S1024x4096) ![0, 0] ![1024, 512] i0).emb x))
    (h1 : ∀ x, w1 x = G ((Rect.unit (s := S1024x4096) ![0, 512] ![1024, 512] i1).emb x))
    (h2 : ∀ x, w2 x = G ((Rect.unit (s := S1024x4096) ![0, 1024] ![1024, 512] i2).emb x))
    (h3 : ∀ x, w3 x = G ((Rect.unit (s := S1024x4096) ![0, 1536] ![1024, 512] i3).emb x))
    (h4 : ∀ x, w4 x = G ((Rect.unit (s := S1024x4096) ![0, 2048] ![1024, 512] i4).emb x))
    (h5 : ∀ x, w5 x = G ((Rect.unit (s := S1024x4096) ![0, 2560] ![1024, 512] i5).emb x))
    (h6 : ∀ x, w6 x = G ((Rect.unit (s := S1024x4096) ![0, 3072] ![1024, 512] i6).emb x))
    (h7 : ∀ x, w7 x = G ((Rect.unit (s := S1024x4096) ![0, 3584] ![1024, 512] i7).emb x))
    (L' : List (View.Piece Val S1024x4096 .f32)) :
    View.canon ((⟨Rect.unit (s := S1024x4096) ![0, 3584] ![1024, 512] i7, w7⟩ : View.Piece Val S1024x4096 .f32) ::
      (⟨Rect.unit (s := S1024x4096) ![0, 3072] ![1024, 512] i6, w6⟩ : View.Piece Val S1024x4096 .f32) ::
      (⟨Rect.unit (s := S1024x4096) ![0, 2560] ![1024, 512] i5, w5⟩ : View.Piece Val S1024x4096 .f32) ::
      (⟨Rect.unit (s := S1024x4096) ![0, 2048] ![1024, 512] i4, w4⟩ : View.Piece Val S1024x4096 .f32) ::
      (⟨Rect.unit (s := S1024x4096) ![0, 1536] ![1024, 512] i3, w3⟩ : View.Piece Val S1024x4096 .f32) ::
      (⟨Rect.unit (s := S1024x4096) ![0, 1024] ![1024, 512] i2, w2⟩ : View.Piece Val S1024x4096 .f32) ::
      (⟨Rect.unit (s := S1024x4096) ![0, 512] ![1024, 512] i1, w1⟩ : View.Piece Val S1024x4096 .f32) ::
      (⟨Rect.unit (s := S1024x4096) ![0, 0] ![1024, 512] i0, w0⟩ : View.Piece Val S1024x4096 .f32) :: L') = G := by
  funext y
  have hy0 : (y 0).val < 1024 := (y 0).isLt
  have hy1 : (y 1).val < 4096 := (y 1).isLt
  refine View.canon_append_of_pieces G L' [(⟨Rect.unit (s := S1024x4096) ![0, 3584] ![1024, 512] i7, w7⟩ : View.Piece Val S1024x4096 .f32),
      (⟨Rect.unit (s := S1024x4096) ![0, 3072] ![1024, 512] i6, w6⟩ : View.Piece Val S1024x4096 .f32),
      (⟨Rect.unit (s := S1024x4096) ![0, 2560] ![1024, 512] i5, w5⟩ : View.Piece Val S1024x4096 .f32),
      (⟨Rect.unit (s := S1024x4096) ![0, 2048] ![1024, 512] i4, w4⟩ : View.Piece Val S1024x4096 .f32),
      (⟨Rect.unit (s := S1024x4096) ![0, 1536] ![1024, 512] i3, w3⟩ : View.Piece Val S1024x4096 .f32),
      (⟨Rect.unit (s := S1024x4096) ![0, 1024] ![1024, 512] i2, w2⟩ : View.Piece Val S1024x4096 .f32),
      (⟨Rect.unit (s := S1024x4096) ![0, 512] ![1024, 512] i1, w1⟩ : View.Piece Val S1024x4096 .f32),
      (⟨Rect.unit (s := S1024x4096) ![0, 0] ![1024, 512] i0, w0⟩ : View.Piece Val S1024x4096 .f32)] ?_ y ?_
  · intro p hp
    simp only [List.mem_cons, List.not_mem_nil, or_false] at hp
    rcases hp with rfl | rfl | rfl | rfl | rfl | rfl | rfl | rfl
    exacts [h7, h6, h5, h4, h3, h2, h1, h0]
  rcases (by omega : (y 1).val < 512 ∨ (512 ≤ (y 1).val ∧ (y 1).val < 1024) ∨ (1024 ≤ (y 1).val ∧ (y 1).val < 1536)
      ∨ (1536 ≤ (y 1).val ∧ (y 1).val < 2048) ∨ (2048 ≤ (y 1).val ∧ (y 1).val < 2560) ∨ (2560 ≤ (y 1).val ∧ (y 1).val < 3072)
      ∨ (3072 ≤ (y 1).val ∧ (y 1).val < 3584) ∨ 3584 ≤ (y 1).val) with h | h | h | h | h | h | h | h
  · have hm : y ∈ (Rect.unit (s := S1024x4096) ![0, 0] ![1024, 512] i0).set := Rect.mem_set_unit.mpr fun a => by
      match a with
      | ⟨0, _⟩ => exact ⟨Nat.zero_le _, by show (y 0).val < 0 + 1024; omega⟩
      | ⟨1, _⟩ => exact ⟨by show 0 ≤ (y 1).val; omega, by show (y 1).val < 0 + 512; omega⟩
    exact ⟨(⟨Rect.unit (s := S1024x4096) ![0, 0] ![1024, 512] i0, w0⟩ : View.Piece Val S1024x4096 .f32), by simp only [List.mem_cons, true_or, or_true], hm⟩
  · have hm : y ∈ (Rect.unit (s := S1024x4096) ![0, 512] ![1024, 512] i1).set := Rect.mem_set_unit.mpr fun a => by
      match a with
      | ⟨0, _⟩ => exact ⟨Nat.zero_le _, by show (y 0).val < 0 + 1024; omega⟩
      | ⟨1, _⟩ => exact ⟨by show 512 ≤ (y 1).val; omega, by show (y 1).val < 512 + 512; omega⟩
    exact ⟨(⟨Rect.unit (s := S1024x4096) ![0, 512] ![1024, 512] i1, w1⟩ : View.Piece Val S1024x4096 .f32), by simp only [List.mem_cons, true_or, or_true], hm⟩
  · have hm : y ∈ (Rect.unit (s := S1024x4096) ![0, 1024] ![1024, 512] i2).set := Rect.mem_set_unit.mpr fun a => by
      match a with
      | ⟨0, _⟩ => exact ⟨Nat.zero_le _, by show (y 0).val < 0 + 1024; omega⟩
      | ⟨1, _⟩ => exact ⟨by show 1024 ≤ (y 1).val; omega, by show (y 1).val < 1024 + 512; omega⟩
    exact ⟨(⟨Rect.unit (s := S1024x4096) ![0, 1024] ![1024, 512] i2, w2⟩ : View.Piece Val S1024x4096 .f32), by simp only [List.mem_cons, true_or, or_true], hm⟩
  · have hm : y ∈ (Rect.unit (s := S1024x4096) ![0, 1536] ![1024, 512] i3).set := Rect.mem_set_unit.mpr fun a => by
      match a with
      | ⟨0, _⟩ => exact ⟨Nat.zero_le _, by show (y 0).val < 0 + 1024; omega⟩
      | ⟨1, _⟩ => exact ⟨by show 1536 ≤ (y 1).val; omega, by show (y 1).val < 1536 + 512; omega⟩
    exact ⟨(⟨Rect.unit (s := S1024x4096) ![0, 1536] ![1024, 512] i3, w3⟩ : View.Piece Val S1024x4096 .f32), by simp only [List.mem_cons, true_or, or_true], hm⟩
  · have hm : y ∈ (Rect.unit (s := S1024x4096) ![0, 2048] ![1024, 512] i4).set := Rect.mem_set_unit.mpr fun a => by
      match a with
      | ⟨0, _⟩ => exact ⟨Nat.zero_le _, by show (y 0).val < 0 + 1024; omega⟩
      | ⟨1, _⟩ => exact ⟨by show 2048 ≤ (y 1).val; omega, by show (y 1).val < 2048 + 512; omega⟩
    exact ⟨(⟨Rect.unit (s := S1024x4096) ![0, 2048] ![1024, 512] i4, w4⟩ : View.Piece Val S1024x4096 .f32), by simp only [List.mem_cons, true_or, or_true], hm⟩
  · have hm : y ∈ (Rect.unit (s := S1024x4096) ![0, 2560] ![1024, 512] i5).set := Rect.mem_set_unit.mpr fun a => by
      match a with
      | ⟨0, _⟩ => exact ⟨Nat.zero_le _, by show (y 0).val < 0 + 1024; omega⟩
      | ⟨1, _⟩ => exact ⟨by show 2560 ≤ (y 1).val; omega, by show (y 1).val < 2560 + 512; omega⟩
    exact ⟨(⟨Rect.unit (s := S1024x4096) ![0, 2560] ![1024, 512] i5, w5⟩ : View.Piece Val S1024x4096 .f32), by simp only [List.mem_cons, true_or, or_true], hm⟩
  · have hm : y ∈ (Rect.unit (s := S1024x4096) ![0, 3072] ![1024, 512] i6).set := Rect.mem_set_unit.mpr fun a => by
      match a with
      | ⟨0, _⟩ => exact ⟨Nat.zero_le _, by show (y 0).val < 0 + 1024; omega⟩
      | ⟨1, _⟩ => exact ⟨by show 3072 ≤ (y 1).val; omega, by show (y 1).val < 3072 + 512; omega⟩
    exact ⟨(⟨Rect.unit (s := S1024x4096) ![0, 3072] ![1024, 512] i6, w6⟩ : View.Piece Val S1024x4096 .f32), by simp only [List.mem_cons, true_or, or_true], hm⟩
  · have hm : y ∈ (Rect.unit (s := S1024x4096) ![0, 3584] ![1024, 512] i7).set := Rect.mem_set_unit.mpr fun a => by
      match a with
      | ⟨0, _⟩ => exact ⟨Nat.zero_le _, by show (y 0).val < 0 + 1024; omega⟩
      | ⟨1, _⟩ => exact ⟨by show 3584 ≤ (y 1).val; omega, by show (y 1).val < 3584 + 512; omega⟩
    exact ⟨(⟨Rect.unit (s := S1024x4096) ![0, 3584] ![1024, 512] i7, w7⟩ : View.Piece Val S1024x4096 .f32), by simp only [List.mem_cons, true_or, or_true], hm⟩

theorem readCov_fresh_0 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a)  :
    v.readCov [(⟨Rect.unit (s := S1024x4096) ![0, 0] S1024x4096.size iz, z⟩ : View.Piece Val S1024x4096 .f32)] (Rect.unit (s := S1024x4096) ![0, 0] ![1024, 512] i0).toLoadRect = View.ld z (Rect.unit (s := S1024x4096) ![0, 0] ![1024, 512] i0) := by

  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_1 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (w0 : S1024x512.Idx → Val .f32) :
    v.readCov [(⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 512] ![1024, 512] i1).toLoadRect = View.ld z (Rect.unit (s := S1024x4096) ![0, 512] ![1024, 512] i1) := by
  have d0 : Disjoint (Rect.unit (s := S1024x4096) ![0, 0] ![1024, 512] i0).set (Rect.unit (s := S1024x4096) ![0, 512] ![1024, 512] i1).set :=
    Rect.unit_disjoint 1 (Or.inl (by show (0 : ℕ) + 512 ≤ 512; norm_num))
  rw [View.readCov_cons_of_disjoint v (⟨Rect.unit (s := S1024x4096) ![0, 0] ![1024, 512] i0, w0⟩ : View.Piece Val S1024x4096 .f32) _ (Rect.unit (s := S1024x4096) ![0, 512] ![1024, 512] i1).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_2 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (w0 w1 : S1024x512.Idx → Val .f32) :
    v.readCov [(⟨Rect.unit (s := S1024x4096) ![0, 512] ![1024, 512] i1, w1⟩ : View.Piece Val S1024x4096 .f32),
        (⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 1024] ![1024, 512] i2).toLoadRect = View.ld z (Rect.unit (s := S1024x4096) ![0, 1024] ![1024, 512] i2) := by
  have d0 : Disjoint (Rect.unit (s := S1024x4096) ![0, 0] ![1024, 512] i0).set (Rect.unit (s := S1024x4096) ![0, 1024] ![1024, 512] i2).set :=
    Rect.unit_disjoint 1 (Or.inl (by show (0 : ℕ) + 512 ≤ 1024; norm_num))
  have d1 : Disjoint (Rect.unit (s := S1024x4096) ![0, 512] ![1024, 512] i1).set (Rect.unit (s := S1024x4096) ![0, 1024] ![1024, 512] i2).set :=
    Rect.unit_disjoint 1 (Or.inl (by show (512 : ℕ) + 512 ≤ 1024; norm_num))
  rw [View.readCov_cons_of_disjoint v (⟨Rect.unit (s := S1024x4096) ![0, 512] ![1024, 512] i1, w1⟩ : View.Piece Val S1024x4096 .f32) _ (Rect.unit (s := S1024x4096) ![0, 1024] ![1024, 512] i2).toLoadRect d1,
    View.readCov_cons_of_disjoint v (⟨Rect.unit (s := S1024x4096) ![0, 0] ![1024, 512] i0, w0⟩ : View.Piece Val S1024x4096 .f32) _ (Rect.unit (s := S1024x4096) ![0, 1024] ![1024, 512] i2).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_3 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (w0 w1 w2 : S1024x512.Idx → Val .f32) :
    v.readCov [(⟨Rect.unit (s := S1024x4096) ![0, 1024] ![1024, 512] i2, w2⟩ : View.Piece Val S1024x4096 .f32),
        (⟨Rect.unit (s := S1024x4096) ![0, 512] ![1024, 512] i1, w1⟩ : View.Piece Val S1024x4096 .f32),
        (⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 1536] ![1024, 512] i3).toLoadRect = View.ld z (Rect.unit (s := S1024x4096) ![0, 1536] ![1024, 512] i3) := by
  have d0 : Disjoint (Rect.unit (s := S1024x4096) ![0, 0] ![1024, 512] i0).set (Rect.unit (s := S1024x4096) ![0, 1536] ![1024, 512] i3).set :=
    Rect.unit_disjoint 1 (Or.inl (by show (0 : ℕ) + 512 ≤ 1536; norm_num))
  have d1 : Disjoint (Rect.unit (s := S1024x4096) ![0, 512] ![1024, 512] i1).set (Rect.unit (s := S1024x4096) ![0, 1536] ![1024, 512] i3).set :=
    Rect.unit_disjoint 1 (Or.inl (by show (512 : ℕ) + 512 ≤ 1536; norm_num))
  have d2 : Disjoint (Rect.unit (s := S1024x4096) ![0, 1024] ![1024, 512] i2).set (Rect.unit (s := S1024x4096) ![0, 1536] ![1024, 512] i3).set :=
    Rect.unit_disjoint 1 (Or.inl (by show (1024 : ℕ) + 512 ≤ 1536; norm_num))
  rw [View.readCov_cons_of_disjoint v (⟨Rect.unit (s := S1024x4096) ![0, 1024] ![1024, 512] i2, w2⟩ : View.Piece Val S1024x4096 .f32) _ (Rect.unit (s := S1024x4096) ![0, 1536] ![1024, 512] i3).toLoadRect d2,
    View.readCov_cons_of_disjoint v (⟨Rect.unit (s := S1024x4096) ![0, 512] ![1024, 512] i1, w1⟩ : View.Piece Val S1024x4096 .f32) _ (Rect.unit (s := S1024x4096) ![0, 1536] ![1024, 512] i3).toLoadRect d1,
    View.readCov_cons_of_disjoint v (⟨Rect.unit (s := S1024x4096) ![0, 0] ![1024, 512] i0, w0⟩ : View.Piece Val S1024x4096 .f32) _ (Rect.unit (s := S1024x4096) ![0, 1536] ![1024, 512] i3).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_4 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (i4 : ∀ a, (![0, 2048] : Fin 2 → ℕ) a + (![1024, 512] : Fin 2 → ℕ) a ≤ S1024x4096.size a) (w0 w1 w2 w3 : S1024x512.Idx → Val .f32) :
    v.readCov [(⟨Rect.unit (s := S1024x4096) ![0, 1536] ![1024, 512] i3, w3⟩ : View.Piece Val S1024x4096 .f32),
        (⟨Rect.unit (s := S1024x4096) ![0, 1024] ![1024, 512] i2, w2⟩ : View.Piece Val S1024x4096 .f32),
        (⟨Rect.unit (s := S1024x4096) ![0, 512] ![1024, 512] i1, w1⟩ : View.Piece Val S1024x4096 .f32),
        (⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 2048] ![1024, 512] i4).toLoadRect = View.ld z (Rect.unit (s := S1024x4096) ![0, 2048] ![1024, 512] i4) := by
  have d0 : Disjoint (Rect.unit (s := S1024x4096) ![0, 0] ![1024, 512] i0).set (Rect.unit (s := S1024x4096) ![0, 2048] ![1024, 512] i4).set :=
    Rect.unit_disjoint 1 (Or.inl (by show (0 : ℕ) + 512 ≤ 2048; norm_num))
  have d1 : Disjoint (Rect.unit (s := S1024x4096) ![0, 512] ![1024, 512] i1).set (Rect.unit (s := S1024x4096) ![0, 2048] ![1024, 512] i4).set :=
    Rect.unit_disjoint 1 (Or.inl (by show (512 : ℕ) + 512 ≤ 2048; norm_num))
  have d2 : Disjoint (Rect.unit (s := S1024x4096) ![0, 1024] ![1024, 512] i2).set (Rect.unit (s := S1024x4096) ![0, 2048] ![1024, 512] i4).set :=
    Rect.unit_disjoint 1 (Or.inl (by show (1024 : ℕ) + 512 ≤ 2048; norm_num))
  have d3 : Disjoint (Rect.unit (s := S1024x4096) ![0, 1536] ![1024, 512] i3).set (Rect.unit (s := S1024x4096) ![0, 2048] ![1024, 512] i4).set :=
    Rect.unit_disjoint 1 (Or.inl (by show (1536 : ℕ) + 512 ≤ 2048; norm_num))
  rw [View.readCov_cons_of_disjoint v (⟨Rect.unit (s := S1024x4096) ![0, 1536] ![1024, 512] i3, w3⟩ : View.Piece Val S1024x4096 .f32) _ (Rect.unit (s := S1024x4096) ![0, 2048] ![1024, 512] i4).toLoadRect d3,
    View.readCov_cons_of_disjoint v (⟨Rect.unit (s := S1024x4096) ![0, 1024] ![1024, 512] i2, w2⟩ : View.Piece Val S1024x4096 .f32) _ (Rect.unit (s := S1024x4096) ![0, 2048] ![1024, 512] i4).toLoadRect d2,
    View.readCov_cons_of_disjoint v (⟨Rect.unit (s := S1024x4096) ![0, 512] ![1024, 512] i1, w1⟩ : View.Piece Val S1024x4096 .f32) _ (Rect.unit (s := S1024x4096) ![0, 2048] ![1024, 512] i4).toLoadRect d1,
    View.readCov_cons_of_disjoint v (⟨Rect.unit (s := S1024x4096) ![0, 0] ![1024, 512] i0, w0⟩ : View.Piece Val S1024x4096 .f32) _ (Rect.unit (s := S1024x4096) ![0, 2048] ![1024, 512] i4).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_5 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (i4 : ∀ a, (![0, 2048] : Fin 2 → ℕ) a + (![1024, 512] : Fin 2 → ℕ) a ≤ S1024x4096.size a) (i5 : ∀ a, (![0, 2560] : Fin 2 → ℕ) a + (![1024, 512] : Fin 2 → ℕ) a ≤ S1024x4096.size a) (w0 w1 w2 w3 w4 : S1024x512.Idx → Val .f32) :
    v.readCov [(⟨Rect.unit (s := S1024x4096) ![0, 2048] ![1024, 512] i4, w4⟩ : View.Piece Val S1024x4096 .f32),
        (⟨Rect.unit (s := S1024x4096) ![0, 1536] ![1024, 512] i3, w3⟩ : View.Piece Val S1024x4096 .f32),
        (⟨Rect.unit (s := S1024x4096) ![0, 1024] ![1024, 512] i2, w2⟩ : View.Piece Val S1024x4096 .f32),
        (⟨Rect.unit (s := S1024x4096) ![0, 512] ![1024, 512] i1, w1⟩ : View.Piece Val S1024x4096 .f32),
        (⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 2560] ![1024, 512] i5).toLoadRect = View.ld z (Rect.unit (s := S1024x4096) ![0, 2560] ![1024, 512] i5) := by
  have d0 : Disjoint (Rect.unit (s := S1024x4096) ![0, 0] ![1024, 512] i0).set (Rect.unit (s := S1024x4096) ![0, 2560] ![1024, 512] i5).set :=
    Rect.unit_disjoint 1 (Or.inl (by show (0 : ℕ) + 512 ≤ 2560; norm_num))
  have d1 : Disjoint (Rect.unit (s := S1024x4096) ![0, 512] ![1024, 512] i1).set (Rect.unit (s := S1024x4096) ![0, 2560] ![1024, 512] i5).set :=
    Rect.unit_disjoint 1 (Or.inl (by show (512 : ℕ) + 512 ≤ 2560; norm_num))
  have d2 : Disjoint (Rect.unit (s := S1024x4096) ![0, 1024] ![1024, 512] i2).set (Rect.unit (s := S1024x4096) ![0, 2560] ![1024, 512] i5).set :=
    Rect.unit_disjoint 1 (Or.inl (by show (1024 : ℕ) + 512 ≤ 2560; norm_num))
  have d3 : Disjoint (Rect.unit (s := S1024x4096) ![0, 1536] ![1024, 512] i3).set (Rect.unit (s := S1024x4096) ![0, 2560] ![1024, 512] i5).set :=
    Rect.unit_disjoint 1 (Or.inl (by show (1536 : ℕ) + 512 ≤ 2560; norm_num))
  have d4 : Disjoint (Rect.unit (s := S1024x4096) ![0, 2048] ![1024, 512] i4).set (Rect.unit (s := S1024x4096) ![0, 2560] ![1024, 512] i5).set :=
    Rect.unit_disjoint 1 (Or.inl (by show (2048 : ℕ) + 512 ≤ 2560; norm_num))
  rw [View.readCov_cons_of_disjoint v (⟨Rect.unit (s := S1024x4096) ![0, 2048] ![1024, 512] i4, w4⟩ : View.Piece Val S1024x4096 .f32) _ (Rect.unit (s := S1024x4096) ![0, 2560] ![1024, 512] i5).toLoadRect d4,
    View.readCov_cons_of_disjoint v (⟨Rect.unit (s := S1024x4096) ![0, 1536] ![1024, 512] i3, w3⟩ : View.Piece Val S1024x4096 .f32) _ (Rect.unit (s := S1024x4096) ![0, 2560] ![1024, 512] i5).toLoadRect d3,
    View.readCov_cons_of_disjoint v (⟨Rect.unit (s := S1024x4096) ![0, 1024] ![1024, 512] i2, w2⟩ : View.Piece Val S1024x4096 .f32) _ (Rect.unit (s := S1024x4096) ![0, 2560] ![1024, 512] i5).toLoadRect d2,
    View.readCov_cons_of_disjoint v (⟨Rect.unit (s := S1024x4096) ![0, 512] ![1024, 512] i1, w1⟩ : View.Piece Val S1024x4096 .f32) _ (Rect.unit (s := S1024x4096) ![0, 2560] ![1024, 512] i5).toLoadRect d1,
    View.readCov_cons_of_disjoint v (⟨Rect.unit (s := S1024x4096) ![0, 0] ![1024, 512] i0, w0⟩ : View.Piece Val S1024x4096 .f32) _ (Rect.unit (s := S1024x4096) ![0, 2560] ![1024, 512] i5).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_6 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (i4 : ∀ a, (![0, 2048] : Fin 2 → ℕ) a + (![1024, 512] : Fin 2 → ℕ) a ≤ S1024x4096.size a) (i5 : ∀ a, (![0, 2560] : Fin 2 → ℕ) a + (![1024, 512] : Fin 2 → ℕ) a ≤ S1024x4096.size a) (i6 : ∀ a, (![0, 3072] : Fin 2 → ℕ) a + (![1024, 512] : Fin 2 → ℕ) a ≤ S1024x4096.size a) (w0 w1 w2 w3 w4 w5 : S1024x512.Idx → Val .f32) :
    v.readCov [(⟨Rect.unit (s := S1024x4096) ![0, 2560] ![1024, 512] i5, w5⟩ : View.Piece Val S1024x4096 .f32),
        (⟨Rect.unit (s := S1024x4096) ![0, 2048] ![1024, 512] i4, w4⟩ : View.Piece Val S1024x4096 .f32),
        (⟨Rect.unit (s := S1024x4096) ![0, 1536] ![1024, 512] i3, w3⟩ : View.Piece Val S1024x4096 .f32),
        (⟨Rect.unit (s := S1024x4096) ![0, 1024] ![1024, 512] i2, w2⟩ : View.Piece Val S1024x4096 .f32),
        (⟨Rect.unit (s := S1024x4096) ![0, 512] ![1024, 512] i1, w1⟩ : View.Piece Val S1024x4096 .f32),
        (⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 3072] ![1024, 512] i6).toLoadRect = View.ld z (Rect.unit (s := S1024x4096) ![0, 3072] ![1024, 512] i6) := by
  have d0 : Disjoint (Rect.unit (s := S1024x4096) ![0, 0] ![1024, 512] i0).set (Rect.unit (s := S1024x4096) ![0, 3072] ![1024, 512] i6).set :=
    Rect.unit_disjoint 1 (Or.inl (by show (0 : ℕ) + 512 ≤ 3072; norm_num))
  have d1 : Disjoint (Rect.unit (s := S1024x4096) ![0, 512] ![1024, 512] i1).set (Rect.unit (s := S1024x4096) ![0, 3072] ![1024, 512] i6).set :=
    Rect.unit_disjoint 1 (Or.inl (by show (512 : ℕ) + 512 ≤ 3072; norm_num))
  have d2 : Disjoint (Rect.unit (s := S1024x4096) ![0, 1024] ![1024, 512] i2).set (Rect.unit (s := S1024x4096) ![0, 3072] ![1024, 512] i6).set :=
    Rect.unit_disjoint 1 (Or.inl (by show (1024 : ℕ) + 512 ≤ 3072; norm_num))
  have d3 : Disjoint (Rect.unit (s := S1024x4096) ![0, 1536] ![1024, 512] i3).set (Rect.unit (s := S1024x4096) ![0, 3072] ![1024, 512] i6).set :=
    Rect.unit_disjoint 1 (Or.inl (by show (1536 : ℕ) + 512 ≤ 3072; norm_num))
  have d4 : Disjoint (Rect.unit (s := S1024x4096) ![0, 2048] ![1024, 512] i4).set (Rect.unit (s := S1024x4096) ![0, 3072] ![1024, 512] i6).set :=
    Rect.unit_disjoint 1 (Or.inl (by show (2048 : ℕ) + 512 ≤ 3072; norm_num))
  have d5 : Disjoint (Rect.unit (s := S1024x4096) ![0, 2560] ![1024, 512] i5).set (Rect.unit (s := S1024x4096) ![0, 3072] ![1024, 512] i6).set :=
    Rect.unit_disjoint 1 (Or.inl (by show (2560 : ℕ) + 512 ≤ 3072; norm_num))
  rw [View.readCov_cons_of_disjoint v (⟨Rect.unit (s := S1024x4096) ![0, 2560] ![1024, 512] i5, w5⟩ : View.Piece Val S1024x4096 .f32) _ (Rect.unit (s := S1024x4096) ![0, 3072] ![1024, 512] i6).toLoadRect d5,
    View.readCov_cons_of_disjoint v (⟨Rect.unit (s := S1024x4096) ![0, 2048] ![1024, 512] i4, w4⟩ : View.Piece Val S1024x4096 .f32) _ (Rect.unit (s := S1024x4096) ![0, 3072] ![1024, 512] i6).toLoadRect d4,
    View.readCov_cons_of_disjoint v (⟨Rect.unit (s := S1024x4096) ![0, 1536] ![1024, 512] i3, w3⟩ : View.Piece Val S1024x4096 .f32) _ (Rect.unit (s := S1024x4096) ![0, 3072] ![1024, 512] i6).toLoadRect d3,
    View.readCov_cons_of_disjoint v (⟨Rect.unit (s := S1024x4096) ![0, 1024] ![1024, 512] i2, w2⟩ : View.Piece Val S1024x4096 .f32) _ (Rect.unit (s := S1024x4096) ![0, 3072] ![1024, 512] i6).toLoadRect d2,
    View.readCov_cons_of_disjoint v (⟨Rect.unit (s := S1024x4096) ![0, 512] ![1024, 512] i1, w1⟩ : View.Piece Val S1024x4096 .f32) _ (Rect.unit (s := S1024x4096) ![0, 3072] ![1024, 512] i6).toLoadRect d1,
    View.readCov_cons_of_disjoint v (⟨Rect.unit (s := S1024x4096) ![0, 0] ![1024, 512] i0, w0⟩ : View.Piece Val S1024x4096 .f32) _ (Rect.unit (s := S1024x4096) ![0, 3072] ![1024, 512] i6).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

theorem readCov_fresh_7 {κ : Kind} {sp : Space} (v : View sig κ sp S1024x4096 .f32) (z : S1024x4096.Idx → Val .f32)
    (iz : ∀ a, (![0, 0] : Fin 2 → ℕ) a + S1024x4096.size a ≤ S1024x4096.size a) (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (i4 : ∀ a, (![0, 2048] : Fin 2 → ℕ) a + (![1024, 512] : Fin 2 → ℕ) a ≤ S1024x4096.size a) (i5 : ∀ a, (![0, 2560] : Fin 2 → ℕ) a + (![1024, 512] : Fin 2 → ℕ) a ≤ S1024x4096.size a) (i6 : ∀ a, (![0, 3072] : Fin 2 → ℕ) a + (![1024, 512] : Fin 2 → ℕ) a ≤ S1024x4096.size a) (i7 : ∀ a, (![0, 3584] : Fin 2 → ℕ) a + (![1024, 512] : Fin 2 → ℕ) a ≤ S1024x4096.size a) (w0 w1 w2 w3 w4 w5 w6 : S1024x512.Idx → Val .f32) :
    v.readCov [(⟨Rect.unit (s := S1024x4096) ![0, 3072] ![1024, 512] i6, w6⟩ : View.Piece Val S1024x4096 .f32),
        (⟨Rect.unit (s := S1024x4096) ![0, 2560] ![1024, 512] i5, w5⟩ : View.Piece Val S1024x4096 .f32),
        (⟨Rect.unit (s := S1024x4096) ![0, 2048] ![1024, 512] i4, w4⟩ : View.Piece Val S1024x4096 .f32),
        (⟨Rect.unit (s := S1024x4096) ![0, 1536] ![1024, 512] i3, w3⟩ : View.Piece Val S1024x4096 .f32),
        (⟨Rect.unit (s := S1024x4096) ![0, 1024] ![1024, 512] i2, w2⟩ : View.Piece Val S1024x4096 .f32),
        (⟨Rect.unit (s := S1024x4096) ![0, 512] ![1024, 512] i1, w1⟩ : View.Piece Val S1024x4096 .f32),
        (⟨Rect.unit (s := S1024x4096) ![0, 0] ![1024, 512] i0, w0⟩ : View.Piece Val S1024x4096 .f32),
        (⟨Rect.unit (s := S1024x4096) ![0, 0] S1024x4096.size iz, z⟩ : View.Piece Val S1024x4096 .f32)] (Rect.unit (s := S1024x4096) ![0, 3584] ![1024, 512] i7).toLoadRect = View.ld z (Rect.unit (s := S1024x4096) ![0, 3584] ![1024, 512] i7) := by
  have d0 : Disjoint (Rect.unit (s := S1024x4096) ![0, 0] ![1024, 512] i0).set (Rect.unit (s := S1024x4096) ![0, 3584] ![1024, 512] i7).set :=
    Rect.unit_disjoint 1 (Or.inl (by show (0 : ℕ) + 512 ≤ 3584; norm_num))
  have d1 : Disjoint (Rect.unit (s := S1024x4096) ![0, 512] ![1024, 512] i1).set (Rect.unit (s := S1024x4096) ![0, 3584] ![1024, 512] i7).set :=
    Rect.unit_disjoint 1 (Or.inl (by show (512 : ℕ) + 512 ≤ 3584; norm_num))
  have d2 : Disjoint (Rect.unit (s := S1024x4096) ![0, 1024] ![1024, 512] i2).set (Rect.unit (s := S1024x4096) ![0, 3584] ![1024, 512] i7).set :=
    Rect.unit_disjoint 1 (Or.inl (by show (1024 : ℕ) + 512 ≤ 3584; norm_num))
  have d3 : Disjoint (Rect.unit (s := S1024x4096) ![0, 1536] ![1024, 512] i3).set (Rect.unit (s := S1024x4096) ![0, 3584] ![1024, 512] i7).set :=
    Rect.unit_disjoint 1 (Or.inl (by show (1536 : ℕ) + 512 ≤ 3584; norm_num))
  have d4 : Disjoint (Rect.unit (s := S1024x4096) ![0, 2048] ![1024, 512] i4).set (Rect.unit (s := S1024x4096) ![0, 3584] ![1024, 512] i7).set :=
    Rect.unit_disjoint 1 (Or.inl (by show (2048 : ℕ) + 512 ≤ 3584; norm_num))
  have d5 : Disjoint (Rect.unit (s := S1024x4096) ![0, 2560] ![1024, 512] i5).set (Rect.unit (s := S1024x4096) ![0, 3584] ![1024, 512] i7).set :=
    Rect.unit_disjoint 1 (Or.inl (by show (2560 : ℕ) + 512 ≤ 3584; norm_num))
  have d6 : Disjoint (Rect.unit (s := S1024x4096) ![0, 3072] ![1024, 512] i6).set (Rect.unit (s := S1024x4096) ![0, 3584] ![1024, 512] i7).set :=
    Rect.unit_disjoint 1 (Or.inl (by show (3072 : ℕ) + 512 ≤ 3584; norm_num))
  rw [View.readCov_cons_of_disjoint v (⟨Rect.unit (s := S1024x4096) ![0, 3072] ![1024, 512] i6, w6⟩ : View.Piece Val S1024x4096 .f32) _ (Rect.unit (s := S1024x4096) ![0, 3584] ![1024, 512] i7).toLoadRect d6,
    View.readCov_cons_of_disjoint v (⟨Rect.unit (s := S1024x4096) ![0, 2560] ![1024, 512] i5, w5⟩ : View.Piece Val S1024x4096 .f32) _ (Rect.unit (s := S1024x4096) ![0, 3584] ![1024, 512] i7).toLoadRect d5,
    View.readCov_cons_of_disjoint v (⟨Rect.unit (s := S1024x4096) ![0, 2048] ![1024, 512] i4, w4⟩ : View.Piece Val S1024x4096 .f32) _ (Rect.unit (s := S1024x4096) ![0, 3584] ![1024, 512] i7).toLoadRect d4,
    View.readCov_cons_of_disjoint v (⟨Rect.unit (s := S1024x4096) ![0, 1536] ![1024, 512] i3, w3⟩ : View.Piece Val S1024x4096 .f32) _ (Rect.unit (s := S1024x4096) ![0, 3584] ![1024, 512] i7).toLoadRect d3,
    View.readCov_cons_of_disjoint v (⟨Rect.unit (s := S1024x4096) ![0, 1024] ![1024, 512] i2, w2⟩ : View.Piece Val S1024x4096 .f32) _ (Rect.unit (s := S1024x4096) ![0, 3584] ![1024, 512] i7).toLoadRect d2,
    View.readCov_cons_of_disjoint v (⟨Rect.unit (s := S1024x4096) ![0, 512] ![1024, 512] i1, w1⟩ : View.Piece Val S1024x4096 .f32) _ (Rect.unit (s := S1024x4096) ![0, 3584] ![1024, 512] i7).toLoadRect d1,
    View.readCov_cons_of_disjoint v (⟨Rect.unit (s := S1024x4096) ![0, 0] ![1024, 512] i0, w0⟩ : View.Piece Val S1024x4096 .f32) _ (Rect.unit (s := S1024x4096) ![0, 3584] ![1024, 512] i7).toLoadRect d0]
  have hc : ∀ y : S1024x4096.Idx, ∃ p ∈ [(⟨Rect.unit (s := S1024x4096) ![0, 0] S1024x4096.size iz, z⟩ : View.Piece Val S1024x4096 .f32)], y ∈ p.1.set :=
    fun y => ⟨_, List.mem_singleton_self _, View.mem_set_unit_zero hz iz y⟩
  rw [View.readCov_eq_canon_ld v _ _ hc, View.canon_unit_zero hz]

end Layout

/-! ## One chunk update at an entry -/

/-- The old chunk plus the activation block (already narrowed, entrywise the same numbers) times 512 weight rows: at the
    chunk's entry `(r, q)`, which is the buffer's entry `(r, off + q)`, this is the old value plus
    `∑ j, x r j * W (off + q) j`. -/
theorem chunk_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (xb : FVec Ideal S1024x128 .bf16)
    (hxb : ∀ (r : Fin 1024) (j : Fin 128), xb (ix2 r j) = x0 (ix2 r j))
    (x1 : Vec Ideal S4096x128 .bf16) (xo : Vec Ideal S1024x4096 .f32) (x : S1024x512.Idx) :
    addf (View.ld (Val := Elt Ideal) xo (Rect.unit (s := S1024x4096) ![0, off] ![1024, 512] iO))
        (matmul (φ₁ := .bf16) (φ₂ := .bf16) dot_S1024x128_S512x128_S1024x512_1_1_0_0_n_n none xb
          (View.ld (Val := Elt Ideal) x1 (Rect.unit (s := S4096x128) ![off, 0] ![512, 128] iW)) (constant S1024x512 .f32 0x00000000#32)) x
      = LoraTiles.stepO x0 x1 xo ((Rect.unit (s := S1024x4096) ![0, off] ![1024, 512] iO).emb x) := by
  obtain ⟨r, q, rfl⟩ : ∃ (r : Fin 1024) (q : Fin 512), x = ix2 r q := ⟨x 0, x 1, eq_ix2 x⟩
  unfold LoraTiles.stepO
  refine (addf_apply _ _ _).trans (congrArg₂ (· + ·) rfl ((matmul_xw xb _ r q).trans (Finset.sum_congr rfl fun j _ => ?_)))
  refine congrArg₂ (· * ·) ((hxb r j).trans (congrArg x0 ?_)) (congrArg x1 ?_)
  · funext a
    apply Fin.ext
    match a with
    | ⟨0, _⟩ => show r.val = 0 + 1 * r.val; omega
    | ⟨1, _⟩ => rfl
  · funext a
    apply Fin.ext
    match a with
    | ⟨0, _⟩ => rfl
    | ⟨1, _⟩ => show 0 + 1 * j.val = j.val; omega

end Cert.KernelIdeal.LoraBody

end
-- ==== Proof.LoraCases.lean ====
/-
  What one grid point leaves behind, case by case, over the extended reals.

  The body's arithmetic (the generated payload terms) read at an entry:
    * narrowing the activation block to sixteen bits changes no number; the masked block is the entrywise product;
    * each of the eight chunk updates is the old chunk plus activations times 512 weight rows (`LoraChunks.chunk_at`);
    * the scratch update is the old low-rank sums plus masked activations times the block of `A` (`LoraTiles.stepS`);
    * the closing update adds the low-rank sums times `B` (`LoraTiles.closeO`); the two fills are zero.

  And from these, what each control case leaves in the output block and in the scratch:
    first column block  (k = 0):   stepO x W 0,            stepS x d A 0
    a middle block:                stepO x W (before),     stepS x d A (before)
    last column block  (k = 31):   closeO B (stepS …) (stepO …),   stepS x d A (before)
  In the first case every chunk's read-back follows the zero fill and the chunks to its left only, so it reads zero; in
  the last case the closing update reads the whole buffer back after the eight chunk stores, that is, the stepped output.
-/
import proofs.«167855_j1992864825716_2_alg».proof.Proof.LoraChunks
import proofs.«167855_j1992864825716_2_alg».proof.Proof.Gen.KernelIdeal.Frame
import Idealize.ShloMosaic.Lib.Tactic

set_option maxRecDepth 16384

noncomputable section

namespace Cert.KernelIdeal.LoraBody

open Cert.KernelIdeal Cert.KernelIdeal.Gen Idealize.ShloMosaic Idealize.ShloMosaic.TcCoe Idealize.ShloMosaic.ValueIdx Idealize.SL.Sem
open Cert.LoraTiles (stepO stepS closeO)

/-! ## The payloads at an entry -/

theorem pay6_at (x0 : Vec Ideal S1024x128 .f32) (r : Fin 1024) (j : Fin 128) : k0_pay6 x0 (ix2 r j) = x0 (ix2 r j) := by
  unfold k0_pay6
  simp only [shapeCast_self]
  rfl

theorem pay7_at (x0 x4 : Vec Ideal S1024x128 .f32) (r : Fin 1024) (j : Fin 128) :
    k0_pay7 x0 x4 (ix2 r j) = x0 (ix2 r j) * x4 (ix2 r j) := by
  unfold k0_pay7 k0_pay6
  simp only [shapeCast_self]
  rfl

theorem pay8_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay8 x0 (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay8
  simp only [shapeCast_self]
  exact chunk_at off iW iO x0 (k0_pay6 x0) (pay6_at x0) x1 xo x

theorem pay9_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay9 x0 (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay9
  simp only [shapeCast_self]
  exact chunk_at off iW iO x0 (k0_pay6 x0) (pay6_at x0) x1 xo x

theorem pay10_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay10 x0 (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay10
  simp only [shapeCast_self]
  exact chunk_at off iW iO x0 (k0_pay6 x0) (pay6_at x0) x1 xo x

theorem pay11_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay11 (k0_pay6 x0) (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay11
  simp only [shapeCast_self]
  exact chunk_at off iW iO x0 (k0_pay6 x0) (pay6_at x0) x1 xo x

theorem pay12_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay12 (k0_pay6 x0) (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay12
  simp only [shapeCast_self]
  exact chunk_at off iW iO x0 (k0_pay6 x0) (pay6_at x0) x1 xo x

theorem pay13_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay13 (k0_pay6 x0) (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay13
  simp only [shapeCast_self]
  exact chunk_at off iW iO x0 (k0_pay6 x0) (pay6_at x0) x1 xo x

theorem pay14_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay14 (k0_pay6 x0) (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay14
  simp only [shapeCast_self]
  exact chunk_at off iW iO x0 (k0_pay6 x0) (pay6_at x0) x1 xo x

theorem pay1_at (off : ℕ) (iW : ∀ a, (![off, 0] : Fin 2 → ℕ) a + (![512, 128] : Fin 2 → ℕ) a ≤ S4096x128.size a)
    (iO : ∀ a, (![0, off] : Fin 2 → ℕ) a + (![1024, 512] : Fin 2 → ℕ) a ≤ S1024x4096.size a)
    (x0 : Vec Ideal S1024x128 .f32) (x1 : Vec Ideal S4096x128 .bf16) (xo : Vec Ideal S1024x4096 .f32) (x : S1024x512.Idx) :
    k0_pay1 (k0_pay6 x0) (View.ld (Val := Elt Ideal) x1 (Rect.unit (s := S4096x128) ![off, 0] ![512, 128] iW))
        (View.ld (Val := Elt Ideal) xo (Rect.unit (s := S1024x4096) ![0, off] ![1024, 512] iO)) x
      = stepO x0 x1 xo ((Rect.unit (s := S1024x4096) ![0, off] ![1024, 512] iO).emb x) := by
  unfold k0_pay1
  simp only [shapeCast_self]
  exact chunk_at off iW iO x0 (k0_pay6 x0) (pay6_at x0) x1 xo x

/-- The eight chunk updates of one point, over whatever was stored before them, leave the stepped output. -/
theorem canon_stepped (iW0 : ∀ a, (![0, 0] : Fin 2 → ℕ) a + (![512, 128] : Fin 2 → ℕ) a ≤ S4096x128.size a) (iW1 : ∀ a, (![512, 0] : Fin 2 → ℕ) a + (![512, 128] : Fin 2 → ℕ) a ≤ S4096x128.size a) (iW2 : ∀ a, (![1024, 0] : Fin 2 → ℕ) a + (![512, 128] : Fin 2 → ℕ) a ≤ S4096x128.size a) (iW3 : ∀ a, (![1536, 0] : Fin 2 → ℕ) a + (![512, 128] : Fin 2 → ℕ) a ≤ S4096x128.size a) (iW4 : ∀ a, (![2048, 0] : Fin 2 → ℕ) a + (![512, 128] : Fin 2 → ℕ) a ≤ S4096x128.size a) (iW5 : ∀ a, (![2560, 0] : Fin 2 → ℕ) a + (![512, 128] : Fin 2 → ℕ) a ≤ S4096x128.size a) (iW6 : ∀ a, (![3072, 0] : Fin 2 → ℕ) a + (![512, 128] : Fin 2 → ℕ) a ≤ S4096x128.size a) (iW7 : ∀ a, (![3584, 0] : Fin 2 → ℕ) a + (![512, 128] : Fin 2 → ℕ) a ≤ S4096x128.size a)
    (i0 : ∀ a, (![0, 0] : Fin 2 → ℕ) a + (![1024, 512] : Fin 2 → ℕ) a ≤ S1024x4096.size a) (i1 : ∀ a, (![0, 512] : Fin 2 → ℕ) a + (![1024, 512] : Fin 2 → ℕ) a ≤ S1024x4096.size a) (i2 : ∀ a, (![0, 1024] : Fin 2 → ℕ) a + (![1024, 512] : Fin 2 → ℕ) a ≤ S1024x4096.size a) (i3 : ∀ a, (![0, 1536] : Fin 2 → ℕ) a + (![1024, 512] : Fin 2 → ℕ) a ≤ S1024x4096.size a) (i4 : ∀ a, (![0, 2048] : Fin 2 → ℕ) a + (![1024, 512] : Fin 2 → ℕ) a ≤ S1024x4096.size a) (i5 : ∀ a, (![0, 2560] : Fin 2 → ℕ) a + (![1024, 512] : Fin 2 → ℕ) a ≤ S1024x4096.size a) (i6 : ∀ a, (![0, 3072] : Fin 2 → ℕ) a + (![1024, 512] : Fin 2 → ℕ) a ≤ S1024x4096.size a) (i7 : ∀ a, (![0, 3584] : Fin 2 → ℕ) a + (![1024, 512] : Fin 2 → ℕ) a ≤ S1024x4096.size a)
    (x0 : Vec Ideal S1024x128 .f32) (x1 : Vec Ideal S4096x128 .bf16) (xo : Vec Ideal S1024x4096 .f32)
    (L' : List (View.Piece (Elt Ideal) S1024x4096 .f32)) :
    View.canon ((⟨Rect.unit (s := S1024x4096) ![0, 3584] ![1024, 512] i7, (k0_pay1 (k0_pay6 x0) (View.ld (Val := Elt Ideal) x1 (Rect.unit (s := S4096x128) ![3584, 0] ![512, 128] iW7)) (View.ld (Val := Elt Ideal) xo (Rect.unit (s := S1024x4096) ![0, 3584] ![1024, 512] i7)))⟩ : View.Piece (Elt Ideal) S1024x4096 .f32) ::
      (⟨Rect.unit (s := S1024x4096) ![0, 3072] ![1024, 512] i6, (k0_pay14 (k0_pay6 x0) (View.ld (Val := Elt Ideal) x1 (Rect.unit (s := S4096x128) ![3072, 0] ![512, 128] iW6)) (View.ld (Val := Elt Ideal) xo (Rect.unit (s := S1024x4096) ![0, 3072] ![1024, 512] i6)))⟩ : View.Piece (Elt Ideal) S1024x4096 .f32) ::
      (⟨Rect.unit (s := S1024x4096) ![0, 2560] ![1024, 512] i5, (k0_pay13 (k0_pay6 x0) (View.ld (Val := Elt Ideal) x1 (Rect.unit (s := S4096x128) ![2560, 0] ![512, 128] iW5)) (View.ld (Val := Elt Ideal) xo (Rect.unit (s := S1024x4096) ![0, 2560] ![1024, 512] i5)))⟩ : View.Piece (Elt Ideal) S1024x4096 .f32) ::
      (⟨Rect.unit (s := S1024x4096) ![0, 2048] ![1024, 512] i4, (k0_pay12 (k0_pay6 x0) (View.ld (Val := Elt Ideal) x1 (Rect.unit (s := S4096x128) ![2048, 0] ![512, 128] iW4)) (View.ld (Val := Elt Ideal) xo (Rect.unit (s := S1024x4096) ![0, 2048] ![1024, 512] i4)))⟩ : View.Piece (Elt Ideal) S1024x4096 .f32) ::
      (⟨Rect.unit (s := S1024x4096) ![0, 1536] ![1024, 512] i3, (k0_pay11 (k0_pay6 x0) (View.ld (Val := Elt Ideal) x1 (Rect.unit (s := S4096x128) ![1536, 0] ![512, 128] iW3)) (View.ld (Val := Elt Ideal) xo (Rect.unit (s := S1024x4096) ![0, 1536] ![1024, 512] i3)))⟩ : View.Piece (Elt Ideal) S1024x4096 .f32) ::
      (⟨Rect.unit (s := S1024x4096) ![0, 1024] ![1024, 512] i2, (k0_pay10 x0 (View.ld (Val := Elt Ideal) x1 (Rect.unit (s := S4096x128) ![1024, 0] ![512, 128] iW2)) (View.ld (Val := Elt Ideal) xo (Rect.unit (s := S1024x4096) ![0, 1024] ![1024, 512] i2)))⟩ : View.Piece (Elt Ideal) S1024x4096 .f32) ::
      (⟨Rect.unit (s := S1024x4096) ![0, 512] ![1024, 512] i1, (k0_pay9 x0 (View.ld (Val := Elt Ideal) x1 (Rect.unit (s := S4096x128) ![512, 0] ![512, 128] iW1)) (View.ld (Val := Elt Ideal) xo (Rect.unit (s := S1024x4096) ![0, 512] ![1024, 512] i1)))⟩ : View.Piece (Elt Ideal) S1024x4096 .f32) ::
      (⟨Rect.unit (s := S1024x4096) ![0, 0] ![1024, 512] i0, (k0_pay8 x0 (View.ld (Val := Elt Ideal) x1 (Rect.unit (s := S4096x128) ![0, 0] ![512, 128] iW0)) (View.ld (Val := Elt Ideal) xo (Rect.unit (s := S1024x4096) ![0, 0] ![1024, 512] i0)))⟩ : View.Piece (Elt Ideal) S1024x4096 .f32) :: L') = stepO x0 x1 xo :=
  canon_chunks (Val := Elt Ideal) (stepO x0 x1 xo) i0 i1 i2 i3 i4 i5 i6 i7
    (k0_pay8 x0 (View.ld (Val := Elt Ideal) x1 (Rect.unit (s := S4096x128) ![0, 0] ![512, 128] iW0)) (View.ld (Val := Elt Ideal) xo (Rect.unit (s := S1024x4096) ![0, 0] ![1024, 512] i0)))
    (k0_pay9 x0 (View.ld (Val := Elt Ideal) x1 (Rect.unit (s := S4096x128) ![512, 0] ![512, 128] iW1)) (View.ld (Val := Elt Ideal) xo (Rect.unit (s := S1024x4096) ![0, 512] ![1024, 512] i1)))
    (k0_pay10 x0 (View.ld (Val := Elt Ideal) x1 (Rect.unit (s := S4096x128) ![1024, 0] ![512, 128] iW2)) (View.ld (Val := Elt Ideal) xo (Rect.unit (s := S1024x4096) ![0, 1024] ![1024, 512] i2)))
    (k0_pay11 (k0_pay6 x0) (View.ld (Val := Elt Ideal) x1 (Rect.unit (s := S4096x128) ![1536, 0] ![512, 128] iW3)) (View.ld (Val := Elt Ideal) xo (Rect.unit (s := S1024x4096) ![0, 1536] ![1024, 512] i3)))
    (k0_pay12 (k0_pay6 x0) (View.ld (Val := Elt Ideal) x1 (Rect.unit (s := S4096x128) ![2048, 0] ![512, 128] iW4)) (View.ld (Val := Elt Ideal) xo (Rect.unit (s := S1024x4096) ![0, 2048] ![1024, 512] i4)))
    (k0_pay13 (k0_pay6 x0) (View.ld (Val := Elt Ideal) x1 (Rect.unit (s := S4096x128) ![2560, 0] ![512, 128] iW5)) (View.ld (Val := Elt Ideal) xo (Rect.unit (s := S1024x4096) ![0, 2560] ![1024, 512] i5)))
    (k0_pay14 (k0_pay6 x0) (View.ld (Val := Elt Ideal) x1 (Rect.unit (s := S4096x128) ![3072, 0] ![512, 128] iW6)) (View.ld (Val := Elt Ideal) xo (Rect.unit (s := S1024x4096) ![0, 3072] ![1024, 512] i6)))
    (k0_pay1 (k0_pay6 x0) (View.ld (Val := Elt Ideal) x1 (Rect.unit (s := S4096x128) ![3584, 0] ![512, 128] iW7)) (View.ld (Val := Elt Ideal) xo (Rect.unit (s := S1024x4096) ![0, 3584] ![1024, 512] i7)))
    (fun x => pay8_at 0 iW0 i0 x0 x1 xo x)
    (fun x => pay9_at 512 iW1 i1 x0 x1 xo x)
    (fun x => pay10_at 1024 iW2 i2 x0 x1 xo x)
    (fun x => pay11_at 1536 iW3 i3 x0 x1 xo x)
    (fun x => pay12_at 2048 iW4 i4 x0 x1 xo x)
    (fun x => pay13_at 2560 iW5 i5 x0 x1 xo x)
    (fun x => pay14_at 3072 iW6 i6 x0 x1 xo x)
    (fun x => pay1_at 3584 iW7 i7 x0 x1 xo x) L'

theorem pay2_eq (x0 x4 : Vec Ideal S1024x128 .f32) (x2 : Vec Ideal S128x32 .bf16) (xs : Vec Ideal S1024x32 .f32) :
    k0_pay2 (k0_pay7 x0 x4) x2 xs = stepS x0 x4 x2 xs := by
  funext y
  obtain ⟨r, ρ, rfl⟩ : ∃ (r : Fin 1024) (ρ : Fin 32), y = ix2 r ρ := ⟨y 0, y 1, eq_ix2 y⟩
  unfold k0_pay2
  simp only [shapeCast_self]
  unfold stepS
  refine (addf_apply _ _ _).trans (congrArg₂ (· + ·) rfl ?_)
  refine (matmul_xa (φ₁ := .bf16) (φ₂ := .bf16) (k0_pay7 x0 x4) x2 r ρ).trans (Finset.sum_congr rfl fun j _ => ?_)
  exact congrArg (· * x2 (ix2 j ρ)) (pay7_at x0 x4 r j)

theorem pay3_eq (x3 : Vec Ideal S32x4096 .bf16) (s : Vec Ideal S1024x32 .f32) (o : Vec Ideal S1024x4096 .f32) :
    k0_pay3 x3 s o = closeO x3 s o := by
  funext y
  obtain ⟨r, q, rfl⟩ : ∃ (r : Fin 1024) (q : Fin 4096), y = ix2 r q := ⟨y 0, y 1, eq_ix2 y⟩
  unfold k0_pay3
  simp only [shapeCast_self]
  unfold closeO
  exact (addf_apply _ _ _).trans (congrArg₂ (· + ·) rfl (matmul_sb (φ₁ := .bf16) (φ₂ := .bf16) _ _ r q))

theorem pay4_eq : k0_pay4 (F := Ideal) = fun _ => (0 : EReal) := funext fun _ => Ideal.ofBits_zero_f32

theorem pay5_eq : k0_pay5 (F := Ideal) = fun _ => (0 : EReal) := by
  unfold k0_pay5
  simp only [shapeCast_self]
  exact funext fun _ => Ideal.ofBits_zero_f32

/-! ## A middle column block -/

theorem out_B (c : Dev nD) (i : grid0.Coords) (arg2 : Memref sig .tc .vmem S1024x128 .f32) (harg2 : arg2.IsWhole) (arg3 : Memref sig .tc .vmem S4096x128 .bf16) (harg3 : arg3.IsWhole) (arg4 : Memref sig .tc .vmem S128x32 .bf16) (harg4 : arg4.IsWhole) (arg5 : Memref sig .tc .vmem S32x4096 .bf16) (harg5 : arg5.IsWhole) (arg6 : Memref sig .tc .vmem S1024x128 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : ¬cond0_1 i) (x0 : Vec Ideal S1024x128 .f32) (x1 : Vec Ideal S4096x128 .bf16) (x2 : Vec Ideal S128x32 .bf16) (x3 : Vec Ideal S32x4096 .bf16) (x4 : Vec Ideal S1024x128 .f32) (xo5 : Vec Ideal S1024x4096 .f32) (xs0 : Vec Ideal S1024x32 .f32) :
    out0_B_5 (F := Ideal) c i arg2 harg2 arg3 harg3 arg4 harg4 arg5 harg5 arg6 harg6 arg7 harg7 arg8 harg8 hc0 hc1 x0 x1 x2 x3 x4 xo5 xs0 = stepO x0 x1 xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo5 xs0)]
  unfold kernelRun0_B
  dsimp only
  sl_unfold_words
  simp only [View.readAt_eq_ld, harg2.read_unread, harg3.read_unread, harg4.read_unread, harg5.read_unread, harg6.read_unread, harg7.read_unread, harg8.read_unread, View.ld_unit_zero (S := S1024x128) hz, View.ld_unit_zero (S := S128x32) hz, View.ld_unit_zero (S := S32x4096) hz, View.ld_unit_zero (S := S1024x32) hz]
  rw [canon_stepped]

theorem sout_B (c : Dev nD) (i : grid0.Coords) (arg2 : Memref sig .tc .vmem S1024x128 .f32) (harg2 : arg2.IsWhole) (arg3 : Memref sig .tc .vmem S4096x128 .bf16) (harg3 : arg3.IsWhole) (arg4 : Memref sig .tc .vmem S128x32 .bf16) (harg4 : arg4.IsWhole) (arg5 : Memref sig .tc .vmem S32x4096 .bf16) (harg5 : arg5.IsWhole) (arg6 : Memref sig .tc .vmem S1024x128 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : ¬cond0_1 i) (x0 : Vec Ideal S1024x128 .f32) (x1 : Vec Ideal S4096x128 .bf16) (x2 : Vec Ideal S128x32 .bf16) (x3 : Vec Ideal S32x4096 .bf16) (x4 : Vec Ideal S1024x128 .f32) (xo5 : Vec Ideal S1024x4096 .f32) (xs0 : Vec Ideal S1024x32 .f32) :
    sout0_B_0 (F := Ideal) c i arg2 harg2 arg3 harg3 arg4 harg4 arg5 harg5 arg6 harg6 arg7 harg7 arg8 harg8 hc0 hc1 x0 x1 x2 x3 x4 xo5 xs0 = stepS x0 x4 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xo5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x128) hz, View.ld_unit_zero (S := S128x32) hz, View.ld_unit_zero (S := S32x4096) hz, View.ld_unit_zero (S := S1024x32) hz]
  exact pay2_eq x0 x4 x2 xs0

/-! ## The last column block -/

theorem sout_C (c : Dev nD) (i : grid0.Coords) (arg2 : Memref sig .tc .vmem S1024x128 .f32) (harg2 : arg2.IsWhole) (arg3 : Memref sig .tc .vmem S4096x128 .bf16) (harg3 : arg3.IsWhole) (arg4 : Memref sig .tc .vmem S128x32 .bf16) (harg4 : arg4.IsWhole) (arg5 : Memref sig .tc .vmem S32x4096 .bf16) (harg5 : arg5.IsWhole) (arg6 : Memref sig .tc .vmem S1024x128 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : cond0_1 i) (x0 : Vec Ideal S1024x128 .f32) (x1 : Vec Ideal S4096x128 .bf16) (x2 : Vec Ideal S128x32 .bf16) (x3 : Vec Ideal S32x4096 .bf16) (x4 : Vec Ideal S1024x128 .f32) (xo5 : Vec Ideal S1024x4096 .f32) (xs0 : Vec Ideal S1024x32 .f32) :
    sout0_C_0 (F := Ideal) c i arg2 harg2 arg3 harg3 arg4 harg4 arg5 harg5 arg6 harg6 arg7 harg7 arg8 harg8 hc0 hc1 x0 x1 x2 x3 x4 xo5 xs0 = stepS x0 x4 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x128) hz, View.ld_unit_zero (S := S128x32) hz, View.ld_unit_zero (S := S32x4096) hz, View.ld_unit_zero (S := S1024x32) hz]
  exact pay2_eq x0 x4 x2 xs0

theorem out_C (c : Dev nD) (i : grid0.Coords) (arg2 : Memref sig .tc .vmem S1024x128 .f32) (harg2 : arg2.IsWhole) (arg3 : Memref sig .tc .vmem S4096x128 .bf16) (harg3 : arg3.IsWhole) (arg4 : Memref sig .tc .vmem S128x32 .bf16) (harg4 : arg4.IsWhole) (arg5 : Memref sig .tc .vmem S32x4096 .bf16) (harg5 : arg5.IsWhole) (arg6 : Memref sig .tc .vmem S1024x128 .f32) (harg6 : arg6.IsWhole) (arg7 : Memref sig .tc .vmem S1024x4096 .f32) (harg7 : arg7.IsWhole) (arg8 : Memref sig .tc .vmem S1024x32 .f32) (harg8 : arg8.IsWhole) (hc0 : ¬cond0_0 i) (hc1 : cond0_1 i) (x0 : Vec Ideal S1024x128 .f32) (x1 : Vec Ideal S4096x128 .bf16) (x2 : Vec Ideal S128x32 .bf16) (x3 : Vec Ideal S32x4096 .bf16) (x4 : Vec Ideal S1024x128 .f32) (xo5 : Vec Ideal S1024x4096 .f32) (xs0 : Vec Ideal S1024x32 .f32) :
    out0_C_5 (F := Ideal) c i arg2 harg2 arg3 harg3 arg4 harg4 arg5 harg5 arg6 harg6 arg7 harg7 arg8 harg8 hc0 hc1 x0 x1 x2 x3 x4 xo5 xs0 = closeO x3 (stepS x0 x4 x2 xs0) (stepO x0 x1 xo5) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo5 xs0)]
  unfold kernelRun0_C
  dsimp only
  sl_unfold_words
  rw [View.canon_cons_unit_zero (S := S1024x4096) hz, View.readCov_unit_zero (S := S1024x32) _ hz, View.readCov_eq_canon']
  simp only [View.readAt_eq_ld, harg2.read_unread, harg3.read_unread, harg4.read_unread, harg5.read_unread, harg6.read_unread, harg7.read_unread, harg8.read_unread, View.ld_unit_zero (S := S1024x128) hz, View.ld_unit_zero (S := S128x32) hz, View.ld_unit_zero (S := S32x4096) hz, View.ld_unit_zero (S := S1024x32) hz]
  rw [canon_stepped, pay2_eq, pay3_eq]
  exact congrArg (closeO x3 (stepS x0 x4 x2 xs0)) (View.ld_unit_zero (Val := Elt Ideal) (e := .f32) (S := S1024x4096) hz _ (stepO x0 x1 xo5))

/-! ## The first column block -/

theorem sout_A (c : Dev nD) (i : grid0.Coords) (arg2 : Memref sig .tc .vmem S1024x128 .f32) (harg2 : arg2.IsWhole) (arg3 : Memref sig .tc .vmem S4096x128 .bf16) (harg3 : arg3.IsWhole) (arg4 : Memref sig .tc .vmem S128x32 .bf16) (harg4 : arg4.IsWhole) (arg5 : Memref sig .tc .vmem S32x4096 .bf16) (harg5 : arg5.IsWhole) (arg6 : Memref sig .tc .vmem S1024x128 .f32) (harg6 : arg6.IsWhole) (arg7 : Memref sig .tc .vmem S1024x4096 .f32) (harg7 : arg7.IsWhole) (arg8 : Memref sig .tc .vmem S1024x32 .f32) (harg8 : arg8.IsWhole) (hc0 : cond0_0 i) (hc1 : ¬cond0_1 i) (x0 : Vec Ideal S1024x128 .f32) (x1 : Vec Ideal S4096x128 .bf16) (x2 : Vec Ideal S128x32 .bf16) (x3 : Vec Ideal S32x4096 .bf16) (x4 : Vec Ideal S1024x128 .f32) :
    sout0_A_0 (F := Ideal) c i arg2 harg2 arg3 harg3 arg4 harg4 arg5 harg5 arg6 harg6 arg7 harg7 arg8 harg8 hc0 hc1 x0 x1 x2 x3 x4 = stepS x0 x4 x2 (fun _ => 0) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x32) hz, View.readCov_unit_zero (S := S1024x32) _ hz]
  simp only [View.readAt_eq_ld, harg2.read_unread, harg3.read_unread, harg4.read_unread, harg5.read_unread, harg6.read_unread, harg7.read_unread, harg8.read_unread, View.ld_unit_zero (S := S1024x128) hz, View.ld_unit_zero (S := S128x32) hz, View.ld_unit_zero (S := S32x4096) hz, View.ld_unit_zero (S := S1024x32) hz]
  rw [pay2_eq, pay5_eq]

theorem out_A (c : Dev nD) (i : grid0.Coords) (arg2 : Memref sig .tc .vmem S1024x128 .f32) (harg2 : arg2.IsWhole) (arg3 : Memref sig .tc .vmem S4096x128 .bf16) (harg3 : arg3.IsWhole) (arg4 : Memref sig .tc .vmem S128x32 .bf16) (harg4 : arg4.IsWhole) (arg5 : Memref sig .tc .vmem S32x4096 .bf16) (harg5 : arg5.IsWhole) (arg6 : Memref sig .tc .vmem S1024x128 .f32) (harg6 : arg6.IsWhole) (arg7 : Memref sig .tc .vmem S1024x4096 .f32) (harg7 : arg7.IsWhole) (arg8 : Memref sig .tc .vmem S1024x32 .f32) (harg8 : arg8.IsWhole) (hc0 : cond0_0 i) (hc1 : ¬cond0_1 i) (x0 : Vec Ideal S1024x128 .f32) (x1 : Vec Ideal S4096x128 .bf16) (x2 : Vec Ideal S128x32 .bf16) (x3 : Vec Ideal S32x4096 .bf16) (x4 : Vec Ideal S1024x128 .f32) :
    out0_A_5 (F := Ideal) c i arg2 harg2 arg3 harg3 arg4 harg4 arg5 harg5 arg6 harg6 arg7 harg7 arg8 harg8 hc0 hc1 x0 x1 x2 x3 x4 = stepO x0 x1 (fun _ => 0) := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [readCov_fresh_7, readCov_fresh_6, readCov_fresh_5, readCov_fresh_4, readCov_fresh_3, readCov_fresh_2, readCov_fresh_1, readCov_fresh_0]
  simp only [View.readAt_eq_ld, harg2.read_unread, harg3.read_unread, harg4.read_unread, harg5.read_unread, harg6.read_unread, harg7.read_unread, harg8.read_unread, View.ld_unit_zero (S := S1024x128) hz, View.ld_unit_zero (S := S128x32) hz, View.ld_unit_zero (S := S32x4096) hz, View.ld_unit_zero (S := S1024x32) hz]
  rw [canon_stepped, pay4_eq]

end Cert.KernelIdeal.LoraBody

end
-- ==== Proof.LoraAccum.lean ====
/-
  Across the grid: what the output block and the scratch hold after each point.

  The grid is 8 row tiles by 32 column blocks, walked row tile by row tile; point `t` is row tile `t / 32`, column block
  `t % 32`. At that point the staged blocks are: rows `1024 (t/32) …` and columns `128 (t%32) …` of the activations and of
  the mask; columns `128 (t%32) …` of all 4096 weight rows; rows `128 (t%32) …` of `A`; and all of `B`.

  After point `t` the scratch holds the low-rank inner sums over the columns `< 128 (t%32 + 1)`, and the output block the
  base sums over the same columns — except after the last column block of a row tile, where it holds the finished layer
  on that row tile (`LoraTiles.tileOut`). By induction on the point: a first column block starts from zero, any other
  continues from what the point before left (the same row tile, one column block earlier).

  The arrays are read through total readers of natural-number coordinates (a coordinate is taken modulo its extent, which
  changes nothing inside the array), so that block arithmetic is plain arithmetic.
-/
import proofs.«167855_j1992864825716_2_alg».proof.Proof.LoraCases

set_option maxRecDepth 16384

noncomputable section

namespace Cert.KernelIdeal.LoraBody

open Cert.KernelIdeal Cert.KernelIdeal.Gen Idealize.ShloMosaic Idealize.ShloMosaic.TcCoe Idealize.ShloMosaic.ValueIdx Idealize.SL.Sem
open Cert.LoraTiles (stepO stepS closeO accO accS tileOut)

/-! ## Arrays read at natural-number coordinates -/

def rdX (X : S8192x4096.Idx → EReal) (a b : ℕ) : EReal :=
  X (ix2 (⟨a % 8192, Nat.mod_lt _ (by norm_num)⟩ : Fin 8192) (⟨b % 4096, Nat.mod_lt _ (by norm_num)⟩ : Fin 4096))
def rdW (W : S4096x4096.Idx → EReal) (o q : ℕ) : EReal :=
  W (ix2 (⟨o % 4096, Nat.mod_lt _ (by norm_num)⟩ : Fin 4096) (⟨q % 4096, Nat.mod_lt _ (by norm_num)⟩ : Fin 4096))
def rdA (A : S4096x32.Idx → EReal) (q r : ℕ) : EReal :=
  A (ix2 (⟨q % 4096, Nat.mod_lt _ (by norm_num)⟩ : Fin 4096) (⟨r % 32, Nat.mod_lt _ (by norm_num)⟩ : Fin 32))
def rdB (B : S32x4096.Idx → EReal) (r o : ℕ) : EReal :=
  B (ix2 (⟨r % 32, Nat.mod_lt _ (by norm_num)⟩ : Fin 32) (⟨o % 4096, Nat.mod_lt _ (by norm_num)⟩ : Fin 4096))

variable (m : (ℓ : Loc nD τ sig) → Buf (Elt Ideal) ℓ)

/-- Row tile `i` of the activations and of the mask, and the three parameter arrays, as the region finds them. -/
abbrev fxT (c : Dev nD) (i : ℕ) : ℕ → ℕ → EReal := fun r q => rdX (V m c main_v0) (1024 * i + r) q
abbrev fmT (c : Dev nD) (i : ℕ) : ℕ → ℕ → EReal := fun r q => rdX (V m c main_v1) (1024 * i + r) q
abbrev fwT (c : Dev nD) : ℕ → ℕ → EReal := rdW (V m c main_v2)
abbrev faT (c : Dev nD) : ℕ → ℕ → EReal := rdA (V m c main_v3)
abbrev fbT (c : Dev nD) : ℕ → ℕ → EReal := rdB (V m c main_v4)

/-! ## The blocks at a point -/

/-- The printed index maps, decided over the 256 grid points. -/
theorem idx_facts : ∀ t : Fin cfg0.N,
    win0_0.index t (0 : Fin 2) = t.val / 32 ∧ win0_0.index t (1 : Fin 2) = t.val % 32
    ∧ win0_1.index t (0 : Fin 2) = 0 ∧ win0_1.index t (1 : Fin 2) = t.val % 32
    ∧ win0_2.index t (0 : Fin 2) = t.val % 32 ∧ win0_2.index t (1 : Fin 2) = 0
    ∧ win0_3.index t (0 : Fin 2) = 0 ∧ win0_3.index t (1 : Fin 2) = 0
    ∧ win0_4.index t (0 : Fin 2) = t.val / 32 ∧ win0_4.index t (1 : Fin 2) = t.val % 32
    ∧ win0_5.index t (0 : Fin 2) = t.val / 32 ∧ win0_5.index t (1 : Fin 2) = 0 :=
  (by decide +kernel : ∀ t : Fin grid0.N, _)

theorem iblk0_at (c : Dev nD) (t : Fin cfg0.N) (r : Fin 1024) (j : Fin 128) :
    (iblk m c 0 t : Vec Ideal S1024x128 .f32) (ix2 r j) = rdX (V m c main_v0) (1024 * (t.val / 32) + r.val) (128 * (t.val % 32) + j.val) := by
  obtain ⟨e0, e1, -⟩ := idx_facts t
  have ht : t.val < 256 := lt_of_lt_of_eq t.isLt (show cfg0.N = 256 from N_0)
  have hr := r.isLt
  have hj := j.isLt
  unfold iblk rdX
  rw [View.read_apply]
  show V m c main_v0 _ = V m c main_v0 _
  refine congrArg (V m c main_v0) (funext fun a => Fin.ext ?_)
  match a with
  | ⟨0, _⟩ => show win0_0.index t (0 : Fin 2) * 1024 + 1 * r.val = (1024 * (t.val / 32) + r.val) % 8192; omega
  | ⟨1, _⟩ => show win0_0.index t (1 : Fin 2) * 128 + 1 * j.val = (128 * (t.val % 32) + j.val) % 4096; omega

theorem iblk4_at (c : Dev nD) (t : Fin cfg0.N) (r : Fin 1024) (j : Fin 128) :
    (iblk m c 4 t : Vec Ideal S1024x128 .f32) (ix2 r j) = rdX (V m c main_v1) (1024 * (t.val / 32) + r.val) (128 * (t.val % 32) + j.val) := by
  obtain ⟨-, -, -, -, -, -, -, -, e0, e1, -⟩ := idx_facts t
  have ht : t.val < 256 := lt_of_lt_of_eq t.isLt (show cfg0.N = 256 from N_0)
  have hr := r.isLt
  have hj := j.isLt
  unfold iblk rdX
  rw [View.read_apply]
  show V m c main_v1 _ = V m c main_v1 _
  refine congrArg (V m c main_v1) (funext fun a => Fin.ext ?_)
  match a with
  | ⟨0, _⟩ => show win0_4.index t (0 : Fin 2) * 1024 + 1 * r.val = (1024 * (t.val / 32) + r.val) % 8192; omega
  | ⟨1, _⟩ => show win0_4.index t (1 : Fin 2) * 128 + 1 * j.val = (128 * (t.val % 32) + j.val) % 4096; omega

theorem iblk1_at (c : Dev nD) (t : Fin cfg0.N) (o : Fin 4096) (j : Fin 128) :
    (iblk m c 1 t : Vec Ideal S4096x128 .bf16) (ix2 o j) = rdW (V m c main_v2) o.val (128 * (t.val % 32) + j.val) := by
  obtain ⟨-, -, e0, e1, -⟩ := idx_facts t
  have ht : t.val < 256 := lt_of_lt_of_eq t.isLt (show cfg0.N = 256 from N_0)
  have ho := o.isLt
  have hj := j.isLt
  unfold iblk rdW
  rw [View.read_apply]
  show V m c main_v2 _ = V m c main_v2 _
  refine congrArg (V m c main_v2) (funext fun a => Fin.ext ?_)
  match a with
  | ⟨0, _⟩ => show win0_1.index t (0 : Fin 2) * 4096 + 1 * o.val = o.val % 4096; omega
  | ⟨1, _⟩ => show win0_1.index t (1 : Fin 2) * 128 + 1 * j.val = (128 * (t.val % 32) + j.val) % 4096; omega

theorem iblk2_at (c : Dev nD) (t : Fin cfg0.N) (j : Fin 128) (r : Fin 32) :
    (iblk m c 2 t : Vec Ideal S128x32 .bf16) (ix2 j r) = rdA (V m c main_v3) (128 * (t.val % 32) + j.val) r.val := by
  obtain ⟨-, -, -, -, e0, e1, -⟩ := idx_facts t
  have ht : t.val < 256 := lt_of_lt_of_eq t.isLt (show cfg0.N = 256 from N_0)
  have hr := r.isLt
  have hj := j.isLt
  unfold iblk rdA
  rw [View.read_apply]
  show V m c main_v3 _ = V m c main_v3 _
  refine congrArg (V m c main_v3) (funext fun a => Fin.ext ?_)
  match a with
  | ⟨0, _⟩ => show win0_2.index t (0 : Fin 2) * 128 + 1 * j.val = (128 * (t.val % 32) + j.val) % 4096; omega
  | ⟨1, _⟩ => show win0_2.index t (1 : Fin 2) * 32 + 1 * r.val = r.val % 32; omega

theorem iblk3_at (c : Dev nD) (t : Fin cfg0.N) (r : Fin 32) (o : Fin 4096) :
    (iblk m c 3 t : Vec Ideal S32x4096 .bf16) (ix2 r o) = rdB (V m c main_v4) r.val o.val := by
  obtain ⟨-, -, -, -, -, -, e0, e1, -⟩ := idx_facts t
  have hr := r.isLt
  have ho := o.isLt
  unfold iblk rdB
  rw [View.read_apply]
  show V m c main_v4 _ = V m c main_v4 _
  refine congrArg (V m c main_v4) (funext fun a => Fin.ext ?_)
  match a with
  | ⟨0, _⟩ => show win0_3.index t (0 : Fin 2) * 32 + 1 * r.val = r.val % 32; omega
  | ⟨1, _⟩ => show win0_3.index t (1 : Fin 2) * 4096 + 1 * o.val = o.val % 4096; omega

/-! ## One point's step on the running sums -/

theorem stepO_pt (c : Dev nD) (t : Fin cfg0.N) :
    stepO (iblk m c 0 t) (iblk m c 1 t) (accO (fxT m c (t.val / 32)) (fwT m c) (128 * (t.val % 32)))
      = accO (fxT m c (t.val / 32)) (fwT m c) (128 * (t.val % 32 + 1)) :=
  Cert.LoraTiles.stepO_acc (fxT m c (t.val / 32)) (fwT m c) (t.val % 32) (iblk m c 0 t) (iblk m c 1 t)
    (fun r j => iblk0_at m c t r j) (fun o j => iblk1_at m c t o j)

theorem stepS_pt (c : Dev nD) (t : Fin cfg0.N) :
    stepS (iblk m c 0 t) (iblk m c 4 t) (iblk m c 2 t) (accS (fxT m c (t.val / 32)) (fmT m c (t.val / 32)) (faT m c) (128 * (t.val % 32)))
      = accS (fxT m c (t.val / 32)) (fmT m c (t.val / 32)) (faT m c) (128 * (t.val % 32 + 1)) :=
  Cert.LoraTiles.stepS_acc (fxT m c (t.val / 32)) (fmT m c (t.val / 32)) (faT m c) (t.val % 32) (iblk m c 0 t) (iblk m c 4 t) (iblk m c 2 t)
    (fun r j => iblk0_at m c t r j) (fun r j => iblk4_at m c t r j) (fun j r => iblk2_at m c t j r)

/-! ## The invariant -/

/-- What the output block and the scratch hold after point `n`. -/
def inv (c : Dev nD) (n : ℕ) : Vec Ideal S1024x4096 .f32 × Vec Ideal S1024x32 .f32 :=
  (if n % 32 = 31 then tileOut (fxT m c (n / 32)) (fmT m c (n / 32)) (fwT m c) (faT m c) (fbT m c)
    else accO (fxT m c (n / 32)) (fwT m c) (128 * (n % 32 + 1)),
   accS (fxT m c (n / 32)) (fmT m c (n / 32)) (faT m c) (128 * (n % 32 + 1)))

theorem inv_fst_of_ne (c : Dev nD) (n : ℕ) (h : ¬n % 32 = 31) :
    (inv m c n).1 = accO (fxT m c (n / 32)) (fwT m c) (128 * (n % 32 + 1)) := if_neg h
theorem inv_fst_of_eq (c : Dev nD) (n : ℕ) (h : n % 32 = 31) :
    (inv m c n).1 = tileOut (fxT m c (n / 32)) (fmT m c (n / 32)) (fwT m c) (faT m c) (fbT m c) := if_pos h
theorem inv_snd (c : Dev nD) (n : ℕ) :
    (inv m c n).2 = accS (fxT m c (n / 32)) (fmT m c (n / 32)) (faT m c) (128 * (n % 32 + 1)) := rfl

/-- The point before, when it is in the same row tile: one column block fewer. -/
theorem prev_fst (c : Dev nD) (t : Fin cfg0.N) (h0 : ¬t.val % 32 = 0) :
    (inv m c (t.val - 1)).1 = accO (fxT m c (t.val / 32)) (fwT m c) (128 * (t.val % 32)) := by
  rw [inv_fst_of_ne m c _ (by omega), show (t.val - 1) / 32 = t.val / 32 from by omega,
    show (t.val - 1) % 32 + 1 = t.val % 32 from by omega]
theorem prev_snd (c : Dev nD) (t : Fin cfg0.N) (h0 : ¬t.val % 32 = 0) :
    (inv m c (t.val - 1)).2 = accS (fxT m c (t.val / 32)) (fmT m c (t.val / 32)) (faT m c) (128 * (t.val % 32)) := by
  rw [inv_snd, show (t.val - 1) / 32 = t.val / 32 from by omega, show (t.val - 1) % 32 + 1 = t.val % 32 from by omega]

set_option maxHeartbeats 4000000 in
/-- One point: from the invariant at the point before (needed only when this is not a first column block). -/
theorem point_eq (c : Dev nD) (t : Fin cfg0.N)
    (hprev : ¬t.val % 32 = 0 → outsAt0 (F := Ideal) m c (t.val - 1) (Nat.lt_of_le_of_lt (Nat.sub_le _ _) t.isLt) = inv m c (t.val - 1)) :
    outsAt0 (F := Ideal) m c t.val t.isLt = inv m c t.val := by
  by_cases h0 : t.val % 32 = 0
  · have h1 : ¬t.val % 32 = 31 := by omega
    have z1 : (fun _ => (0 : EReal)) = accO (fxT m c (t.val / 32)) (fwT m c) (128 * (t.val % 32)) := by
      rw [h0]; exact (Cert.LoraTiles.accO_zero _ _).symm
    have z2 : (fun _ => (0 : EReal)) = accS (fxT m c (t.val / 32)) (fmT m c (t.val / 32)) (faT m c) (128 * (t.val % 32)) := by
      rw [h0]; exact (Cert.LoraTiles.accS_zero _ _ _).symm
    rw [outsAt0_A m c t h0 h1]
    refine Prod.ext ?_ ?_ <;> dsimp only
    · refine (out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).trans ?_
      rw [inv_fst_of_ne m c _ h1, z1]
      exact stepO_pt m c t
    · refine (sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)).trans ?_
      rw [inv_snd, z2]
      exact stepS_pt m c t
  · by_cases h1 : t.val % 32 = 31
    · rw [outsAt0_C m c t h0 h1, hprev h0]
      refine Prod.ext ?_ ?_ <;> dsimp only
      · refine (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
          (inv m c (t.val - 1)).1 (inv m c (t.val - 1)).2).trans ?_
        rw [prev_fst m c t h0, prev_snd m c t h0, stepO_pt m c t, stepS_pt m c t, inv_fst_of_eq m c _ h1, h1]
        exact Cert.LoraTiles.closeO_acc (fxT m c (t.val / 32)) (fmT m c (t.val / 32)) (fwT m c) (faT m c) (fbT m c) (iblk m c 3 t) (fun r o => iblk3_at m c t r o)
      · refine (sout_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
          (inv m c (t.val - 1)).1 (inv m c (t.val - 1)).2).trans ?_
        rw [prev_snd m c t h0, inv_snd]
        exact stepS_pt m c t
    · rw [outsAt0_B m c t h0 h1, hprev h0]
      refine Prod.ext ?_ ?_ <;> dsimp only
      · refine (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t)
          (inv m c (t.val - 1)).1 (inv m c (t.val - 1)).2).trans ?_
        rw [prev_fst m c t h0, inv_fst_of_ne m c _ h1]
        exact stepO_pt m c t
      · refine (sout_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t)
          (inv m c (t.val - 1)).1 (inv m c (t.val - 1)).2).trans ?_
        rw [prev_snd m c t h0, inv_snd]
        exact stepS_pt m c t

/-- After every point: by induction on the point, never by enumerating the grid. -/
theorem outsAt_eq (c : Dev nD) : ∀ (n : ℕ) (h : n < cfg0.N), outsAt0 (F := Ideal) m c n h = inv m c n
  | 0, h => point_eq m c ⟨0, h⟩ (fun hne => absurd (Nat.zero_mod 32) hne)
  | n + 1, h => point_eq m c ⟨n + 1, h⟩ (fun _ => outsAt_eq c n (Nat.lt_of_succ_lt h))

end Cert.KernelIdeal.LoraBody

end
-- ==== Proof.LoraLayer.lean ====
/-
  The layer on whole arrays: the function both programs compute.

  For activations `x` and a dropout mask `d` of shape (4, 2048, 4096), a weight matrix `W` (4096 output features by 4096
  inputs), and low-rank factors `A` (4096 × 32) and `B` (32 × 4096), the output at (b, s, o) is

      ∑ q, x b s q * W o q  +  ∑ ρ, (∑ q, (x b s q * d b s q) * A q ρ) * B ρ o .

  The scale of the low-rank term is `α / rank = 32 / 32 = 1`; one program omits the multiplication, the other multiplies
  by the literal one, and `1 * v = v` on every extended real.
-/
import Idealize.ShloMosaic.PureOps.Ideal
import Idealize.ShloMosaic.Lib.ValueIdx

noncomputable section

namespace Cert.LoraLayer

open Idealize.ShloMosaic Idealize.ShloMosaic.ValueIdx

abbrev Acts : Shape := ⟨3, ![4, 2048, 4096]⟩
abbrev Weights : Shape := ⟨2, ![4096, 4096]⟩
abbrev Down : Shape := ⟨2, ![4096, 32]⟩
abbrev Up : Shape := ⟨2, ![32, 4096]⟩

/-- The layer's output, entry by entry. -/
def layer (x : Acts.Idx → EReal) (W : Weights.Idx → EReal) (A : Down.Idx → EReal) (B : Up.Idx → EReal)
    (d : Acts.Idx → EReal) : Acts.Idx → EReal :=
  fun i => (∑ q : Fin 4096, x (ix3 (i 0) (i 1) q) * W (ix2 (i 2) q))
    + ∑ ρ : Fin 32, (∑ q : Fin 4096, (x (ix3 (i 0) (i 1) q) * d (ix3 (i 0) (i 1) q)) * A (ix2 q ρ)) * B (ix2 ρ (i 2))

end Cert.LoraLayer

end
-- ==== Proof.LoraArray.lean ====
/-
  From blocks to the result array, and the host operations around the region.

  The output window's block index moves with the row tile only, so a block is written back once, after the last column
  block of its row tile, and then holds the finished layer on that tile; the eight row tiles tile the (8192 × 4096)
  array. Hence the array the region leaves is `outArr`: at (R, o), the base sum of row `R` against weight row `o` plus
  the low-rank term.

  Before the region the host only re-lays the activations and the mask from (4, 2048, 4096) to (8192, 4096) — entry
  (b, s, q) at (2048 b + s, q) — and narrows the three parameter arrays, which changes no number. After it the host
  re-lays the result back. So the program's result at (b, s, o) is the layer there (`LoraLayer.layer`).
-/
import proofs.«167855_j1992864825716_2_alg».proof.Proof.LoraAccum
import proofs.«167855_j1992864825716_2_alg».proof.Proof.LoraLayer
import Idealize.ShloMosaic.Lib.StableHlo.Run

set_option maxRecDepth 16384

noncomputable section

namespace Cert.KernelIdeal.LoraBody

open Cert.KernelIdeal Cert.KernelIdeal.Gen Idealize.ShloMosaic Idealize.ShloMosaic.TcCoe Idealize.ShloMosaic.ValueIdx Idealize.SL.Sem
open Idealize.ShloMosaic.Pipeline (Dat)
open Cert.LoraTiles (tileOut)
open Cert.LoraLayer (layer)

variable (m : (ℓ : Loc nD τ sig) → Buf (Elt Ideal) ℓ) (ρ : Dev nD → PrngReg)

/-! ## The array the region leaves -/

/-- The layer on the re-laid arrays, at row `R` and output feature `o`. -/
abbrev outArr (c : Dev nD) : Buf (Elt Ideal) ((c : Thread nD τ).loc main_v5) := fun (z : S8192x4096.Idx) =>
  (∑ q ∈ Finset.range 4096, rdX (V m c main_v0) (z 0).val q * rdW (V m c main_v2) (z 1).val q)
    + ∑ r : Fin 32, (∑ q ∈ Finset.range 4096, (rdX (V m c main_v0) (z 0).val q * rdX (V m c main_v1) (z 0).val q)
        * rdA (V m c main_v3) q r.val) * rdB (V m c main_v4) r.val (z 1).val

/-- What a point that writes back writes: its row tile of `outArr`. -/
theorem flushed_eq (c : Dev nD) (t : Fin cfg0.N) (hf : (cfg0.win 5).flush t = true) :
    (dats (F := Ideal) m 0 c).flushed 5 t = ((cfg0.win 5).blk t).view.read (Elt Ideal) (outArr m c) := by
  have h31 : t.val % 32 = 31 := (flush0_5 t).mp hf
  have ht : t.val < 256 := lt_of_lt_of_eq t.isLt (show cfg0.N = 256 from N_0)
  obtain ⟨-, -, -, -, -, -, -, -, -, -, e0, e1⟩ := idx_facts t
  show (cfg0.win 5).cut (grid0.coords t) ((dats (F := Ideal) m 0 c).after 5 t) = _
  rw [after0_5, outsAt_eq, inv_fst_of_eq m c _ h31]
  funext y
  rw [View.read_apply]
  have hy0 : (y 0).val < 1024 := (y 0).isLt
  have hy1 : (y 1).val < 4096 := (y 1).isLt
  have he : ((cfg0.win 5).blk t).view.emb y
      = ix2 (⟨1024 * (t.val / 32) + (y 0).val, by omega⟩ : Fin 8192) (⟨(y 1).val, hy1⟩ : Fin 4096) := by
    funext a
    apply Fin.ext
    match a with
    | ⟨0, _⟩ => show win0_5.index t (0 : Fin 2) * 1024 + 1 * (y 0).val = 1024 * (t.val / 32) + (y 0).val; omega
    | ⟨1, _⟩ => show win0_5.index t (1 : Fin 2) * 4096 + 1 * (y 1).val = (y 1).val; omega
  show tileOut (fxT m c (t.val / 32)) (fmT m c (t.val / 32)) (fwT m c) (faT m c) (fbT m c) y
    = outArr m c (((cfg0.win 5).blk t).view.emb y)
  rw [he]
  rfl

/-- An index of the array is in point `t`'s block iff each coordinate is in the block's range. -/
theorem mem_blk5 (t : Fin cfg0.N) (i : S8192x4096.Idx) :
    i ∈ ((cfg0.win 5).blk t).view.set ↔ ∀ a : Fin 2, win0_5.index t a * S1024x4096.size a ≤ (i a).val
      ∧ (i a).val < win0_5.index t a * S1024x4096.size a + S1024x4096.size a := by
  show i ∈ ((View.whole main_v5).slice (win0_5.rect t)).set ↔ _
  rw [View.set_slice_whole, Rect.mem_set_unit]
  exact Iff.rfl

/-- Every row lies in the block some writing-back point writes: the last column block of the row's tile. -/
theorem cover5 (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  have hlt : 32 * ((i 0).val / 1024) + 31 < cfg0.N := by rw [hN]; omega
  obtain ⟨-, -, -, -, -, -, -, -, -, -, e0, e1⟩ := idx_facts ⟨32 * ((i 0).val / 1024) + 31, hlt⟩
  have e0' : win0_5.index ⟨32 * ((i 0).val / 1024) + 31, hlt⟩ (0 : Fin 2) = (32 * ((i 0).val / 1024) + 31) / 32 := e0
  refine ⟨⟨32 * ((i 0).val / 1024) + 31, hlt⟩, (flush0_5 _).mpr (by show (32 * ((i 0).val / 1024) + 31) % 32 = 31; omega), ?_⟩
  rw [mem_blk5]
  intro a
  match a with
  | ⟨0, _⟩ =>
    show win0_5.index ⟨32 * ((i 0).val / 1024) + 31, hlt⟩ (0 : Fin 2) * 1024 ≤ (i 0).val
      ∧ (i 0).val < win0_5.index ⟨32 * ((i 0).val / 1024) + 31, hlt⟩ (0 : Fin 2) * 1024 + 1024
    omega
  | ⟨1, _⟩ =>
    show win0_5.index ⟨32 * ((i 0).val / 1024) + 31, hlt⟩ (1 : Fin 2) * 4096 ≤ (i 1).val
      ∧ (i 1).val < win0_5.index ⟨32 * ((i 0).val / 1024) + 31, hlt⟩ (1 : Fin 2) * 4096 + 4096
    omega

/-- So the region leaves `outArr` in its result array. -/
theorem final5 (c : Dev nD) : (dats (F := Ideal) m 0 c).arrAt 5 cfg0.N = outArr m c :=
  (dats (F := Ideal) m 0 c).arrAt_eq_of_cover 5 (outArr m c) (flushed_eq m c) (fun i => cover5 i)

/-! ## The host operations before the region -/

theorem V_v0 (c : Dev nD) : (V m c main_v0 : S8192x4096.Idx → EReal)
    = shapeCast S8192x4096 (m ((c : Thread nD τ).loc main_arg0)) shapeCasts_S4x2048x4096_S8192x4096 := by
  show StableHlo.after hostOps0 (fun b => m (c, b)) (Proc.devRef .tc main_v0) = _
  after_results
  rfl
theorem V_v1 (c : Dev nD) : (V m c main_v1 : S8192x4096.Idx → EReal)
    = shapeCast S8192x4096 (m ((c : Thread nD τ).loc main_arg4)) shapeCasts_S4x2048x4096_S8192x4096 := by
  show StableHlo.after hostOps0 (fun b => m (c, b)) (Proc.devRef .tc main_v1) = _
  after_results
  rfl
theorem V_v2 (c : Dev nD) : (V m c main_v2 : S4096x4096.Idx → EReal) = (m ((c : Thread nD τ).loc main_arg1)) := by
  show StableHlo.after hostOps0 (fun b => m (c, b)) (Proc.devRef .tc main_v2) = _
  after_results
  rfl
theorem V_v3 (c : Dev nD) : (V m c main_v3 : S4096x32.Idx → EReal) = (m ((c : Thread nD τ).loc main_arg2)) := by
  show StableHlo.after hostOps0 (fun b => m (c, b)) (Proc.devRef .tc main_v3) = _
  after_results
  rfl
theorem V_v4 (c : Dev nD) : (V m c main_v4 : S32x4096.Idx → EReal) = (m ((c : Thread nD τ).loc main_arg3)) := by
  show StableHlo.after hostOps0 (fun b => m (c, b)) (Proc.devRef .tc main_v4) = _
  after_results
  rfl

/-- Re-laying (4, 2048, 4096) as (8192, 4096): row `2048 b + s`, column `q` holds entry (b, s, q). -/
theorem relaid_apply (x : S4x2048x4096.Idx → EReal) (b : Fin 4) (s : Fin 2048) (q : Fin 4096) (hR : 2048 * b.val + s.val < 8192) :
    shapeCast S8192x4096 x shapeCasts_S4x2048x4096_S8192x4096 (ix2 (⟨2048 * b.val + s.val, hR⟩ : Fin 8192) q) = x (ix3 b s q) :=
  shapeCast_apply x _ _ (ix3 b s q) (by
    rw [Shape.rowMajor_val_three, Shape.rowMajor_val_two]
    show (b.val * 2048 + s.val) * 4096 + q.val = (2048 * b.val + s.val) * 4096 + q.val
    omega)

/-! ## The readers on the launch contents -/

theorem rdX_relaid (x : S4x2048x4096.Idx → EReal) (b : Fin 4) (s : Fin 2048) (q : Fin 4096) :
    rdX (shapeCast S8192x4096 x shapeCasts_S4x2048x4096_S8192x4096) (2048 * b.val + s.val) q.val = x (ix3 b s q) := by
  have hb := b.isLt
  have hs := s.isLt
  have hq := q.isLt
  have hR : 2048 * b.val + s.val < 8192 := by omega
  unfold rdX
  refine Eq.trans (congrArg _ ?_) (relaid_apply x b s q hR)
  funext a
  apply Fin.ext
  match a with
  | ⟨0, _⟩ => show (2048 * b.val + s.val) % 8192 = 2048 * b.val + s.val; omega
  | ⟨1, _⟩ => show q.val % 4096 = q.val; omega

theorem rdW_at (W : S4096x4096.Idx → EReal) (o q : Fin 4096) : rdW W o.val q.val = W (ix2 o q) := by
  have ho := o.isLt
  have hq := q.isLt
  unfold rdW
  refine congrArg _ (funext fun a => Fin.ext ?_)
  match a with
  | ⟨0, _⟩ => show o.val % 4096 = o.val; omega
  | ⟨1, _⟩ => show q.val % 4096 = q.val; omega

theorem rdA_at (A : S4096x32.Idx → EReal) (q : Fin 4096) (r : Fin 32) : rdA A q.val r.val = A (ix2 q r) := by
  have hq := q.isLt
  have hr := r.isLt
  unfold rdA
  refine congrArg _ (funext fun a => Fin.ext ?_)
  match a with
  | ⟨0, _⟩ => show q.val % 4096 = q.val; omega
  | ⟨1, _⟩ => show r.val % 32 = r.val; omega

theorem rdB_at (B : S32x4096.Idx → EReal) (r : Fin 32) (o : Fin 4096) : rdB B r.val o.val = B (ix2 r o) := by
  have ho := o.isLt
  have hr := r.isLt
  unfold rdB
  refine congrArg _ (funext fun a => Fin.ext ?_)
  match a with
  | ⟨0, _⟩ => show r.val % 32 = r.val; omega
  | ⟨1, _⟩ => show o.val % 4096 = o.val; omega

/-! ## The program's result -/

/-- The result array: `outArr` re-laid as (4, 2048, 4096). -/
abbrev result (c : Dev nD) : Buf (Elt Ideal) ((c : Thread nD τ).loc main_v6) :=
  shapeCast S4x2048x4096 (outArr m c) shapeCasts_S8192x4096_S4x2048x4096

/-- The host operation after the region writes it. -/
theorem tail_v6 (c : Dev nD) :
    Pipeline.afterTail₀ cfgs (dats (F := Ideal) m) 0 (V0 m) [hostOps1] c main_v6 = result m c := by
  unfold Pipeline.afterTail₀
  show StableHlo.after hostOps1 _ (Proc.devRef .tc main_v6) = _
  after_results
  exact congrArg (fun X => shapeCast S4x2048x4096 X shapeCasts_S8192x4096_S4x2048x4096)
    ((Pipeline.withArrays_arr spec0 launch0.win.arr_inj c _ _ 5).trans (final5 m c))

/-- It is the layer of the launch contents, entry by entry. -/
theorem result_eq (c : Dev nD) :
    result m c = layer (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have hR : 2048 * b.val + s.val < 8192 := by omega
  refine (shapeCast_apply (s := S8192x4096) (t := S4x2048x4096) (outArr m c) shapeCasts_S8192x4096_S4x2048x4096 (ix3 b s o)
      (ix2 (⟨2048 * b.val + s.val, hR⟩ : Fin 8192) o) (by
    rw [Shape.rowMajor_val_two, Shape.rowMajor_val_three]
    show (2048 * b.val + s.val) * 4096 + o.val = (b.val * 2048 + s.val) * 4096 + o.val
    omega)).trans ?_
  show (∑ q ∈ Finset.range 4096, rdX (V m c main_v0) (2048 * b.val + s.val) q * rdW (V m c main_v2) o.val q)
      + ∑ r : Fin 32, (∑ q ∈ Finset.range 4096, (rdX (V m c main_v0) (2048 * b.val + s.val) q * rdX (V m c main_v1) (2048 * b.val + s.val) q)
          * rdA (V m c main_v3) q r.val) * rdB (V m c main_v4) r.val o.val = _
  rw [V_v0, V_v1, V_v2, V_v3, V_v4]
  unfold Cert.LoraLayer.layer
  rw [Finset.sum_range (fun q => rdX _ (2048 * b.val + s.val) q * rdW _ o.val q)]
  refine congrArg₂ (· + ·) (Finset.sum_congr rfl fun q _ => ?_) (Finset.sum_congr rfl fun r _ => ?_)
  · exact congrArg₂ (· * ·) (rdX_relaid _ b s q) (rdW_at _ o q)
  · rw [Finset.sum_range (fun q => (rdX _ (2048 * b.val + s.val) q * rdX _ (2048 * b.val + s.val) q) * rdA _ q r.val)]
    refine congrArg₂ (· * ·) (Finset.sum_congr rfl fun q _ => ?_) (rdB_at _ r o)
    exact congrArg₂ (· * ·) (congrArg₂ (· * ·) (rdX_relaid _ b s q) (rdX_relaid _ b s q)) (rdA_at _ q r)

/-! ## The run, read -/

/-- Every weakly fair execution of the program terminates with its result array at the layer of the launch contents and
    the argument arrays unchanged. -/
theorem kernel_run : θ_run defs (onTc (τ := τ) (main (F := Ideal))) ⟨m, fun _ => 0, ρ⟩ fun r => ∀ c : Dev nD,
      r.2.mem ((c.tc : Thread nD τ).loc main_v6)
        = layer (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v6 (Pipeline.mem_restRefs_of main_v6 (by decide) (by decide))).trans (tail_v6 m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main (F := Ideal) m ρ)

end Cert.KernelIdeal.LoraBody

end
-- ==== Proof.LoraRef.lean ====
/-
  The reference computes the layer.

  Its eight host operations are two contractions for the base term (`x` against the rows of `W`), the masked product,
  two contractions for the low-rank term (first over the 4096 inputs against `A`, then over the 32 ranks against `B`), a
  multiplication by the constant one, and the final sum. Read at an index, each contraction is the sum over its one
  contracted axis; the operand indices the reading names are the evident triples and pairs of coordinates.
-/
import proofs.«167855_j1992864825716_2_alg».proof.Proof.Gen.ReferenceIdeal.Read
import proofs.«167855_j1992864825716_2_alg».proof.Proof.LoraLayer

noncomputable section

namespace Cert.ReferenceIdeal.LoraRef

open Cert.ReferenceIdeal Cert.ReferenceIdeal.Gen Cert.ReferenceIdeal.Read Idealize.ShloMosaic Idealize.ShloMosaic.ValueIdx
open Cert.LoraLayer (layer)

/-- The constant the reference scales the low-rank term by is the real number one. -/
theorem one_f32 : Ideal.ofBits .f32 0x3F800000#32 = 1 := IdealRules.sign_bit.ideal_onePat .f32

theorem ref_is_layer (x0 : S4x2048x4096.Idx → EReal) (x1 : S4096x4096.Idx → EReal) (x2 : S4096x32.Idx → EReal)
    (x3 : S32x4096.Idx → EReal) (x4 : S4x2048x4096.Idx → EReal) :
    val_main_v6 (F := Ideal) x0 x1 x2 x3 x4 = layer x0 x1 x2 x3 x4 := by
  funext i
  have e0l : ∀ k, lidx_main_v0 i k = ix3 (i 0) (i 1) k := fun k => funext fun a => by
    match a with | ⟨0, _⟩ => rfl | ⟨1, _⟩ => rfl | ⟨2, _⟩ => rfl
  have e0r : ∀ k, ridx_main_v0 i k = ix2 (i 2) k := fun k => funext fun a => by
    match a with | ⟨0, _⟩ => rfl | ⟨1, _⟩ => rfl
  have e3r : ∀ ρ, ridx_main_v3 i ρ = ix2 ρ (i 2) := fun ρ => funext fun a => by
    match a with | ⟨0, _⟩ => rfl | ⟨1, _⟩ => rfl
  have e2l : ∀ ρ q, lidx_main_v2 (lidx_main_v3 i ρ) q = ix3 (i 0) (i 1) q := fun ρ q => funext fun a => by
    match a with | ⟨0, _⟩ => rfl | ⟨1, _⟩ => rfl | ⟨2, _⟩ => rfl
  have e2r : ∀ ρ q, ridx_main_v2 (lidx_main_v3 i ρ) q = ix2 q ρ := fun ρ q => funext fun a => by
    match a with | ⟨0, _⟩ => rfl | ⟨1, _⟩ => rfl
  rw [val_main_v6_apply, val_main_v0_apply, val_main_v5_apply, val_main_v4_apply, val_main_cst_apply, val_main_v3_apply]
  simp only [val_main_v2_apply, val_main_v1_apply, e0l, e0r, e3r, e2l, e2r, Ideal.addf_def, Ideal.mulf_def, Ideal.ofBits_def,
    one_f32, one_mul]
  rfl

end Cert.ReferenceIdeal.LoraRef

end
-- ==== Proof.lean ====
/-
  A linear layer with a low-rank correction and inverted dropout on the correction's input,

      out = x · Wᵀ + ((x ∘ d) · A) · B        (the correction's scale α / rank is 32 / 32 = 1),

  computed by a tiled kernel against a three-contraction reference: both are the same function of the five argument
  arrays over the extended reals.

  The kernel flattens the (4, 2048) leading axes to 8192 rows and walks a grid of 8 row tiles by 32 blocks of 128
  contraction columns. Per point it adds, chunk by chunk, the block's products into the row tile's output and the masked
  block's products against `A` into a (rows × 32) scratch; the first block of a row tile zeroes both first, and the last
  block adds the scratch times `B`. So after the last block the row tile holds, entry by entry, the two sums over all
  4096 columns taken in 32 consecutive blocks. The reference takes each sum whole. A finite sum over the extended reals
  may be taken in consecutive blocks (addition is commutative and associative at the infinities too), narrowing a number
  to sixteen bits does nothing at the ideal instance, and the reference's multiplication by the literal one is the
  identity: no finiteness of the inputs is needed, and the precondition is never opened.

  Modules: LoraTiles (the running sums and their steps, no program), LoraLayer (the layer on whole arrays), LoraMatmul
  (the body's three products at an entry), LoraChunks (the output buffer's eight column chunks), LoraCases (what each of
  the three control cases leaves), LoraAccum (the induction over the grid), LoraArray (blocks to the array, the host
  re-layings, the run), LoraRef (the reference is the layer). The word-level program needs only its frame; the ideal
  pass rewrote nothing, so `preserves` is `True`.
-/
import proofs.«167855_j1992864825716_2_alg».proof.Defs
import proofs.«167855_j1992864825716_2_alg».proof.Proof.Gen.Kernel
import proofs.«167855_j1992864825716_2_alg».proof.Proof.Gen.Kernel.Skeleton
import proofs.«167855_j1992864825716_2_alg».proof.Proof.Gen.Kernel.Launch
import proofs.«167855_j1992864825716_2_alg».proof.Proof.Gen.Kernel.Points
import proofs.«167855_j1992864825716_2_alg».proof.Proof.Gen.Kernel.Frame
import proofs.«167855_j1992864825716_2_alg».proof.Proof.Gen.KernelIdeal
import proofs.«167855_j1992864825716_2_alg».proof.Proof.Gen.KernelIdeal.Skeleton
import proofs.«167855_j1992864825716_2_alg».proof.Proof.Gen.KernelIdeal.Launch
import proofs.«167855_j1992864825716_2_alg».proof.Proof.Gen.KernelIdeal.Points
import proofs.«167855_j1992864825716_2_alg».proof.Proof.Gen.KernelIdeal.Frame
import proofs.«167855_j1992864825716_2_alg».proof.Proof.Gen.ReferenceIdeal
import proofs.«167855_j1992864825716_2_alg».proof.Proof.Gen.ReferenceIdeal.Run
import proofs.«167855_j1992864825716_2_alg».proof.Proof.Gen.ReferenceIdeal.Read
import proofs.«167855_j1992864825716_2_alg».proof.Proof.Gen.Pre_finite_inputs
import proofs.«167855_j1992864825716_2_alg».proof.Proof.LoraArray
import proofs.«167855_j1992864825716_2_alg».proof.Proof.LoraRef
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at the layer of the launch contents, and the launch contents agree. -/
theorem algebraic : Cert.algebraic_KernelIdeal_ReferenceIdeal := by
  intro m ρ m' ρ' _ hagree
  refine ⟨fun c => Cert.LoraLayer.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.LoraBody.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.LoraRef.ref_is_layer, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
